-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v48)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v133) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S200000 : Shape := ⟨1, ![200000]⟩
abbrev S10000x64 : Shape := ⟨2, ![10000, 64]⟩
abbrev S10000 : Shape := ⟨1, ![10000]⟩
abbrev S256x256 : Shape := ⟨2, ![256, 256]⟩
abbrev S256 : Shape := ⟨1, ![256]⟩
abbrev S320x256 : Shape := ⟨2, ![320, 256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S10000x64 : S_.BroadcastsInDim S10000x64 (![] : Fin 0 → Fin S10000x64.rank)
  reducesTo_S10000x64_S_d0_1 : S10000x64.ReducesTo [0, 1] S_
  bcast_S_S10000 : S_.BroadcastsInDim S10000 (![] : Fin 0 → Fin S10000.rank)
  reducesTo_S10000_S_d0 : S10000.ReducesTo [0] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S320x256 : S_.BroadcastsInDim S320x256 (![] : Fin 0 → Fin S320x256.rank)
  reducesTo_S320x256_S_d0_1 : S320x256.ReducesTo [0, 1] S_

variable [Facts]

def fn_part4 {F : FTy → Type} [FloatOps F] (main_arg16 : FVec F S256 .f32) (main_arg17 : FVec F S256 .f32) (main_arg18 : FVec F S256 .f32) (main_v63 : IVec S_ 1) (main_v67 : IVec S_ 1) : IVec S_ 1 :=
  let main_v68 : IVec S_ 1 := andi main_v63 main_v67
  let main_v69 : FVec F S256 .f32 := Host.absf main_arg16
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256 .f32 := Host.absf main_arg18
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  main_v83

def fn_part3 {F : FTy → Type} [FloatOps F] (main_arg13 : FVec F S256 .f32) (main_arg14 : FVec F S256 .f32) (main_arg15 : FVec F S256x256 .f32) (main_arg16 : FVec F S256 .f32) (main_arg17 : FVec F S256 .f32) (main_arg18 : FVec F S256 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256 .f32 := Host.absf main_arg13
  let main_cst_20 : FVec F S_ .f32 := constant S_ .f32 0x7F800000#32
  let main_v55 : FVec F S256 .f32 := broadcastInDim S256 ![] bcast_S_S256 main_cst_20
  let main_v56 : IVec S256 1 := cmpf .olt main_v54 main_v55
  let main_c_21 : IVec S_ 1 := constantI S_ 1 1#1
  let main_v57 : IVec S_ 1 := (fun x v => Host.reduce IntOp.andi x v reducesTo_S256_S_d0 h_S_) main_v56 main_c_21
  let main_v58 : IVec S_ 1 := andi main_v53 main_v57
  let main_v59 : FVec F S256 .f32 := Host.absf main_arg14
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S256x256 .f32 := Host.absf main_arg15
  let main_cst_24 : FVec F S_ .f32 := constant S_ .f32 0x7F800000#32
  let main_v65 : FVec F S256x256 .f32 := broadcastInDim S256x256 ![] bcast_S_S256x256 main_cst_24
  let main_v66 : IVec S256x256 1 := cmpf .olt main_v64 main_v65
  let main_c_25 : IVec S_ 1 := constantI S_ 1 1#1
  let main_v67 : IVec S_ 1 := (fun x v => Host.reduce IntOp.andi x v reducesTo_S256x256_S_d0_1 h_S_) main_v66 main_c_25
  fn_part4 (F := F) main_arg16 main_arg17 main_arg18 main_v63 main_v67

def fn_part2 {F : FTy → Type} [FloatOps F] (main_arg9 : FVec F S256x256 .f32) (main_arg10 : FVec F S256 .f32) (main_arg11 : FVec F S320x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_v33 : IVec S_ 1) : IVec S_ 1 :=
  let main_v34 : FVec F S256x256 .f32 := Host.absf main_arg9
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg10
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S320x256 .f32 := Host.absf main_arg11
  let main_cst_16 : FVec F S_ .f32 := constant S_ .f32 0x7F800000#32
  let main_v45 : FVec F S320x256 .f32 := broadcastInDim S320x256 ![] bcast_S_S320x256 main_cst_16
  let main_v46 : IVec S320x256 1 := cmpf .olt main_v44 main_v45
  let main_c_17 : IVec S_ 1 := constantI S_ 1 1#1
  let main_v47 : IVec S_ 1 := (fun x v => Host.reduce IntOp.andi x v reducesTo_S320x256_S_d0_1 h_S_) main_v46 main_c_17
  let main_v48 : IVec S_ 1 := andi main_v43 main_v47
  let main_v49 : FVec F S256 .f32 := Host.absf main_arg12
  let main_cst_18 : FVec F S_ .f32 := constant S_ .f32 0x7F800000#32
  let main_v50 : FVec F S256 .f32 := broadcastInDim S256 ![] bcast_S_S256 main_cst_18
  fn_part3 (F := F) main_arg13 main_arg14 main_arg15 main_arg16 main_arg17 main_arg18 main_v48 main_v49 main_v50

def fn_part1 {F : FTy → Type} [FloatOps F] (main_arg6 : FVec F S256 .f32) (main_arg7 : FVec F S256 .f32) (main_arg8 : FVec F S256 .f32) (main_arg9 : FVec F S256x256 .f32) (main_arg10 : FVec F S256 .f32) (main_arg11 : FVec F S320x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg6
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_v33

def fn {F : FTy → Type} [FloatOps F] (main_arg0 : FVec F S50000x256 .f32) (main_arg1 : IVec S200000 32) (main_arg2 : IVec S200000 32) (main_arg3 : FVec F S10000x64 .f32) (main_arg4 : FVec F S10000 .f32) (main_arg5 : FVec F S256x256 .f32) (main_arg6 : FVec F S256 .f32) (main_arg7 : FVec F S256 .f32) (main_arg8 : FVec F S256 .f32) (main_arg9 : FVec F S256x256 .f32) (main_arg10 : FVec F S256 .f32) (main_arg11 : FVec F S320x256 .f32) (main_arg12 : FVec F S256 .f32) (main_arg13 : FVec F S256 .f32) (main_arg14 : FVec F S256 .f32) (main_arg15 : FVec F S256x256 .f32) (main_arg16 : FVec F S256 .f32) (main_arg17 : FVec F S256 .f32) (main_arg18 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S10000x64 .f32 := Host.absf main_arg3
  let main_cst_0 : FVec F S_ .f32 := constant S_ .f32 0x7F800000#32
  let main_v5 : FVec F S10000x64 .f32 := broadcastInDim S10000x64 ![] bcast_S_S10000x64 main_cst_0
  let main_v6 : IVec S10000x64 1 := cmpf .olt main_v4 main_v5
  let main_c_1 : IVec S_ 1 := constantI S_ 1 1#1
  let main_v7 : IVec S_ 1 := (fun x v => Host.reduce IntOp.andi x v reducesTo_S10000x64_S_d0_1 h_S_) main_v6 main_c_1
  let main_v8 : IVec S_ 1 := andi main_v3 main_v7
  let main_v9 : FVec F S10000 .f32 := Host.absf main_arg4
  let main_cst_2 : FVec F S_ .f32 := constant S_ .f32 0x7F800000#32
  let main_v10 : FVec F S10000 .f32 := broadcastInDim S10000 ![] bcast_S_S10000 main_cst_2
  let main_v11 : IVec S10000 1 := cmpf .olt main_v9 main_v10
  let main_c_3 : IVec S_ 1 := constantI S_ 1 1#1
  let main_v12 : IVec S_ 1 := (fun x v => Host.reduce IntOp.andi x v reducesTo_S10000_S_d0 h_S_) main_v11 main_c_3
  let main_v13 : IVec S_ 1 := andi main_v8 main_v12
  let main_v14 : FVec F S256x256 .f32 := Host.absf main_arg5
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg6 main_arg7 main_arg8 main_arg9 main_arg10 main_arg11 main_arg12 main_arg13 main_arg14 main_arg15 main_arg16 main_arg17 main_arg18 main_v13 main_v16
-- ==== Kernel.lean ====
abbrev S50000x256 : Shape := ⟨2, ![50000, 256]⟩
abbrev S200000 : Shape := ⟨1, ![200000]⟩
abbrev S10000x64 : Shape := ⟨2, ![10000, 64]⟩
abbrev S10000 : Shape := ⟨1, ![10000]⟩
abbrev S256x256 : Shape := ⟨2, ![256, 256]⟩
abbrev S256 : Shape := ⟨1, ![256]⟩
abbrev S320x256 : Shape := ⟨2, ![320, 256]⟩
abbrev S_ : Shape := ⟨0, ![]⟩
abbrev S200000x1 : Shape := ⟨2, ![200000, 1]⟩
abbrev S200000x256 : Shape := ⟨2, ![200000, 256]⟩
abbrev S2000x256 : Shape := ⟨2, ![2000, 256]⟩
abbrev S1x256 : Shape := ⟨2, ![1, 256]⟩
abbrev S2000 : Shape := ⟨1, ![2000]⟩
abbrev S2000x1 : Shape := ⟨2, ![2000, 1]⟩
abbrev S10000x256 : Shape := ⟨2, ![10000, 256]⟩
abbrev S10000x1 : Shape := ⟨2, ![10000, 1]⟩
abbrev S200000x64 : Shape := ⟨2, ![200000, 64]⟩
abbrev S200000x320 : Shape := ⟨2, ![200000, 320]⟩
abbrev S2000x320 : Shape := ⟨2, ![2000, 320]⟩
abbrev S50000 : Shape := ⟨1, ![50000]⟩
abbrev S50000x1 : Shape := ⟨2, ![50000, 1]⟩

abbrev nBuf : Space → Nat
  | .hbm => 80
  | .vmem => 28
  | .smem => 0
  | _ => 0

abbrev bufTy : (tb : Table) → Fin (tcTables nBuf tb) → BufTy
  | .hbm, ⟨0, _⟩ => ⟨S50000x256, .f32⟩
  | .hbm, ⟨1, _⟩ => ⟨S200000, .i32⟩
  | .hbm, ⟨2, _⟩ => ⟨S200000, .i32⟩
  | .hbm, ⟨3, _⟩ => ⟨S10000x64, .f32⟩
  | .hbm, ⟨4, _⟩ => ⟨S10000, .f32⟩
  | .hbm, ⟨5, _⟩ => ⟨S256x256, .f32⟩
  | .hbm, ⟨6, _⟩ => ⟨S256, .f32⟩
  | .hbm, ⟨7, _⟩ => ⟨S256, .f32⟩
  | .hbm, ⟨8, _⟩ => ⟨S256, .f32⟩
  | .hbm, ⟨9, _⟩ => ⟨S256x256, .f32⟩
  | .hbm, ⟨10, _⟩ => ⟨S256, .f32⟩
  | .hbm, ⟨11, _⟩ => ⟨S320x256, .f32⟩
  | .hbm, ⟨12, _⟩ => ⟨S256, .f32⟩
  | .hbm, ⟨13, _⟩ => ⟨S256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S256, .f32⟩
  | .hbm, ⟨18, _⟩ => ⟨S256, .f32⟩
  | .hbm, ⟨19, _⟩ => ⟨S_, .i32⟩
  | .hbm, ⟨20, _⟩ => ⟨S200000, .i32⟩
  | .hbm, ⟨21, _⟩ => ⟨S200000, .i1⟩
  | .hbm, ⟨22, _⟩ => ⟨S_, .i32⟩
  | .hbm, ⟨23, _⟩ => ⟨S200000, .i32⟩
  | .hbm, ⟨24, _⟩ => ⟨S200000, .i32⟩
  | .hbm, ⟨25, _⟩ => ⟨S200000, .i32⟩
  | .hbm, ⟨26, _⟩ => ⟨S200000x1, .i32⟩
  | .hbm, ⟨27, _⟩ => ⟨S200000x256, .f32⟩
  | .hbm, ⟨28, _⟩ => ⟨S256x256, .bf16⟩
  | .hbm, ⟨29, _⟩ => ⟨S256x256, .bf16⟩
  | .hbm, ⟨30, _⟩ => ⟨S200000x256, .f32⟩
  | .hbm, ⟨31, _⟩ => ⟨S_, .f32⟩
  | .hbm, ⟨32, _⟩ => ⟨S10000x256, .f32⟩
  | .hbm, ⟨33, _⟩ => ⟨S200000x1, .i32⟩
  | .hbm, ⟨34, _⟩ => ⟨S10000x256, .f32⟩
  | .hbm, ⟨35, _⟩ => ⟨S10000x1, .f32⟩
  | .hbm, ⟨36, _⟩ => ⟨S_, .f32⟩
  | .hbm, ⟨37, _⟩ => ⟨S10000x1, .f32⟩
  | .hbm, ⟨38, _⟩ => ⟨S10000x1, .f32⟩
  | .hbm, ⟨39, _⟩ => ⟨S10000x256, .f32⟩
  | .hbm, ⟨40, _⟩ => ⟨S10000x256, .f32⟩
  | .hbm, ⟨41, _⟩ => ⟨S_, .i32⟩
  | .hbm, ⟨42, _⟩ => ⟨S200000, .i32⟩
  | .hbm, ⟨43, _⟩ => ⟨S200000, .i1⟩
  | .hbm, ⟨44, _⟩ => ⟨S_, .i32⟩
  | .hbm, ⟨45, _⟩ => ⟨S200000, .i32⟩
  | .hbm, ⟨46, _⟩ => ⟨S200000, .i32⟩
  | .hbm, ⟨47, _⟩ => ⟨S200000, .i32⟩
  | .hbm, ⟨48, _⟩ => ⟨S200000x1, .i32⟩
  | .hbm, ⟨49, _⟩ => ⟨S200000x64, .f32⟩
  | .hbm, ⟨50, _⟩ => ⟨S_, .i32⟩
  | .hbm, ⟨51, _⟩ => ⟨S200000, .i32⟩
  | .hbm, ⟨52, _⟩ => ⟨S200000, .i1⟩
  | .hbm, ⟨53, _⟩ => ⟨S_, .i32⟩
  | .hbm, ⟨54, _⟩ => ⟨S200000, .i32⟩
  | .hbm, ⟨55, _⟩ => ⟨S200000, .i32⟩
  | .hbm, ⟨56, _⟩ => ⟨S200000, .i32⟩
  | .hbm, ⟨57, _⟩ => ⟨S200000x1, .i32⟩
  | .hbm, ⟨58, _⟩ => ⟨S200000x256, .f32⟩
  | .hbm, ⟨59, _⟩ => ⟨S200000x320, .f32⟩
  | .hbm, ⟨60, _⟩ => ⟨S320x256, .bf16⟩
  | .hbm, ⟨61, _⟩ => ⟨S256x256, .bf16⟩
  | .hbm, ⟨62, _⟩ => ⟨S200000x256, .f32⟩
  | .hbm, ⟨63, _⟩ => ⟨S_, .f32⟩
  | .hbm, ⟨64, _⟩ => ⟨S50000x256, .f32⟩
  | .hbm, ⟨65, _⟩ => ⟨S200000x1, .i32⟩
  | .hbm, ⟨66, _⟩ => ⟨S50000x256, .f32⟩
  | .hbm, ⟨67, _⟩ => ⟨S_, .f32⟩
  | .hbm, ⟨68, _⟩ => ⟨S200000, .f32⟩
  | .hbm, ⟨69, _⟩ => ⟨S_, .f32⟩
  | .hbm, ⟨70, _⟩ => ⟨S50000, .f32⟩
  | .hbm, ⟨71, _⟩ => ⟨S200000x1, .i32⟩
  | .hbm, ⟨72, _⟩ => ⟨S50000, .f32⟩
  | .hbm, ⟨73, _⟩ => ⟨S50000x1, .f32⟩
  | .hbm, ⟨74, _⟩ => ⟨S_, .f32⟩
  | .hbm, ⟨75, _⟩ => ⟨S50000x1, .f32⟩
  | .hbm, ⟨76, _⟩ => ⟨S50000x1, .f32⟩
  | .hbm, ⟨77, _⟩ => ⟨S50000x256, .f32⟩
  | .hbm, ⟨78, _⟩ => ⟨S50000x256, .f32⟩
  | .hbm, ⟨79, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S256x256, .bf16⟩
  | .local _ .vmem, ⟨3, _⟩ => ⟨S256, .f32⟩
  | .local _ .vmem, ⟨4, _⟩ => ⟨S256, .f32⟩
  | .local _ .vmem, ⟨5, _⟩ => ⟨S256, .f32⟩
  | .local _ .vmem, ⟨6, _⟩ => ⟨S256x256, .bf16⟩
  | .local _ .vmem, ⟨7, _⟩ => ⟨S256, .f32⟩
  | .local _ .vmem, ⟨8, _⟩ => ⟨S2000x256, .f32⟩
  | .local _ .vmem, ⟨9, _⟩ => ⟨S2000x256, .f32⟩
  | .local _ .vmem, ⟨10, _⟩ => ⟨S2000x320, .f32⟩
  | .local _ .vmem, ⟨11, _⟩ => ⟨S2000x320, .f32⟩
  | .local _ .vmem, ⟨12, _⟩ => ⟨S320x256, .bf16⟩
  | .local _ .vmem, ⟨13, _⟩ => ⟨S256, .f32⟩
  | .local _ .vmem, ⟨14, _⟩ => ⟨S256, .f32⟩
  | .local _ .vmem, ⟨15, _⟩ => ⟨S256, .f32⟩
  | .local _ .vmem, ⟨16, _⟩ => ⟨S256x256, .bf16⟩
  | .local _ .vmem, ⟨17, _⟩ => ⟨S256, .f32⟩
  | .local _ .vmem, ⟨18, _⟩ => ⟨S2000x256, .f32⟩
  | .local _ .vmem, ⟨19, _⟩ => ⟨S2000x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S256, .f32⟩
  | .local _ .vmem, ⟨25, _⟩ => ⟨S256, .f32⟩
  | .local _ .vmem, ⟨26, _⟩ => ⟨S2000x256, .f32⟩
  | .local _ .vmem, ⟨27, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_cst : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_cst_1 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_c_2 : Ref sig .tc := ⟨.hbm, 41, rfl⟩
abbrev main_v18 : Ref sig .tc := ⟨.hbm, 42, rfl⟩
abbrev main_v19 : Ref sig .tc := ⟨.hbm, 43, rfl⟩
abbrev main_c_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_v24 : Ref sig .tc := ⟨.hbm, 49, rfl⟩
abbrev main_c_4 : Ref sig .tc := ⟨.hbm, 50, rfl⟩
abbrev main_v25 : Ref sig .tc := ⟨.hbm, 51, rfl⟩
abbrev main_v26 : Ref sig .tc := ⟨.hbm, 52, rfl⟩
abbrev main_c_5 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_cst_6 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_7 : Ref sig .tc := ⟨.hbm, 67, rfl⟩
abbrev main_v39 : Ref sig .tc := ⟨.hbm, 68, rfl⟩
abbrev main_cst_8 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg7_1 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg1_1 : Ref sig .tc := ⟨.vmem, 23, rfl⟩
abbrev cc2_stg2_0 : Ref sig .tc := ⟨.vmem, 24, rfl⟩
abbrev cc2_stg3_0 : Ref sig .tc := ⟨.vmem, 25, rfl⟩
abbrev cc2_stg4_0 : Ref sig .tc := ⟨.vmem, 26, rfl⟩
abbrev cc2_stg4_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem7_1 : DmaSem sig := 19
abbrev cc2_sem0_0 : DmaSem sig := 20
abbrev cc2_sem0_1 : DmaSem sig := 21
abbrev cc2_sem1_0 : DmaSem sig := 22
abbrev cc2_sem1_1 : DmaSem sig := 23
abbrev cc2_sem2_0 : DmaSem sig := 24
abbrev cc2_sem3_0 : DmaSem sig := 25
abbrev cc2_sem4_0 : DmaSem sig := 26
abbrev cc2_sem4_1 : DmaSem sig := 27

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x320 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S320x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S256x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x256 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S256 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bitsLt_bf16_f32 : FTy.bits .bf16 < FTy.bits .f32
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  concatenates_S200000x64_S200000x256_S200000x320_d1 : Shape.Concatenates [S200000x64, S200000x256] S200000x320 1
  inb_S2000x320_S2000x320_0_0 : ∀ a, (![0, 0] : Fin 2 → Nat) a + S2000x320.size a ≤ S2000x320.size a
  h_S2000x320 : 0 < S2000x320.numel
  shapeCasts_S2000x320_S2000x320 : S2000x320.ShapeCasts S2000x320
  inb_S320x256_S320x256_0_0 : ∀ a, (![0, 0] : Fin 2 → Nat) a + S320x256.size a ≤ S320x256.size a
  h_S320x256 : 0 < S320x256.numel
  shapeCasts_S320x256_S320x256 : S320x256.ShapeCasts S320x256
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  gather_S50000x256_S200000x1_S200000x256_1_0_n_n_0_1_1256_wf : GatherDims.WF S50000x256 S200000x1 S200000x256 [1] [0] [] [0] [] 1 ![1, 256]
  dot_S2000x256_S256x256_S2000x256_1_0_0_1_n_n_wf : DotDims.WF S2000x256 S256x256 S2000x256 [1] [0] [0] [1] [] []
  scatter_S10000x256_S200000x1_S200000x256_1_0_0_1_wf : ScatterDims.WF S10000x256 S200000x1 S200000x256 [1] [0] [0] 1
  gather_S10000x64_S200000x1_S200000x64_1_0_n_n_0_1_164_wf : GatherDims.WF S10000x64 S200000x1 S200000x64 [1] [0] [] [0] [] 1 ![1, 64]
  gather_S10000x256_S200000x1_S200000x256_1_0_n_n_0_1_1256_wf : GatherDims.WF S10000x256 S200000x1 S200000x256 [1] [0] [] [0] [] 1 ![1, 256]
  dot_S2000x320_S320x256_S2000x256_1_0_0_1_n_n_wf : DotDims.WF S2000x320 S320x256 S2000x256 [1] [0] [0] [1] [] []
  scatter_S50000x256_S200000x1_S200000x256_1_0_0_1_wf : ScatterDims.WF S50000x256 S200000x1 S200000x256 [1] [0] [0] 1
  scatter_S50000_S200000x1_S200000_n_0_0_1_wf : ScatterDims.WF S50000 S200000x1 S200000 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S200000x256.size a
  hwx0_0 : ∀ i : grid0.Coords, EltTy.bits .f32 = 32 ∨ (Rect.block (s := S200000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .bf16 = 32 ∨ (Rect.block (s := S256x256) S256x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x256.size a ≤ S256x256.size a
  hwx0_5 : ∀ i : grid0.Coords, EltTy.bits .bf16 = 32 ∨ (Rect.block (s := S256x256) S256x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S200000x256.size a
  hwx0_7 : ∀ i : grid0.Coords, EltTy.bits .f32 = 32 ∨ (Rect.block (s := S200000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x320.size a ≤ S200000x320.size a
  hwx1_0 : ∀ i : grid1.Coords, EltTy.bits .f32 = 32 ∨ (Rect.block (s := S200000x320) S2000x320.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S320x256.size a ≤ S320x256.size a
  hwx1_1 : ∀ i : grid1.Coords, EltTy.bits .bf16 = 32 ∨ (Rect.block (s := S320x256) S320x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256.size a ≤ S256.size a
  hwx1_3 : ∀ i : grid1.Coords, EltTy.bits .f32 = 32 ∨ (Rect.block (s := S256) S256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S256x256.size a ≤ S256x256.size a
  hwx1_5 : ∀ i : grid1.Coords, EltTy.bits .bf16 = 32 ∨ (Rect.block (s := S256x256) S256x256.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S256.size a ≤ S256.size a
  hwx1_6 : ∀ i : grid1.Coords, EltTy.bits .f32 = 32 ∨ (Rect.block (s := S256) S256.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x256.size a ≤ S200000x256.size a
  hwx1_7 : ∀ i : grid1.Coords, EltTy.bits .f32 = 32 ∨ (Rect.block (s := S200000x256) S2000x256.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x256.size a ≤ S50000x256.size a
  hwx2_1 : ∀ i : grid2.Coords, EltTy.bits .f32 = 32 ∨ (Rect.block (s := S50000x256) S2000x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256.size a ≤ S256.size a
  hwx2_2 : ∀ i : grid2.Coords, EltTy.bits .f32 = 32 ∨ (Rect.block (s := S256) S256.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S256.size a ≤ S256.size a
  hwx2_3 : ∀ i : grid2.Coords, EltTy.bits .f32 = 32 ∨ (Rect.block (s := S256) S256.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S50000x256.size a
  hwx2_4 : ∀ i : grid2.Coords, EltTy.bits .f32 = 32 ∨ (Rect.block (s := S50000x256) S2000x256.size (cc2_transform_4 i) (hinb2_4 i)).WholeWords (EltTy.packing .f32)

variable [Facts₀]

def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def scatter_S10000x256_S200000x1_S200000x256_1_0_0_1 : ScatterDims S10000x256 S200000x1 S200000x256 where
  updateWindowDims := [1]
  insertedWindowDims := [0]
  scatterDimsToOperandDims := [0]
  indexVectorDim := 1
  wf := scatter_S10000x256_S200000x1_S200000x256_1_0_0_1_wf
def gather_S10000x64_S200000x1_S200000x64_1_0_n_n_0_1_164 : GatherDims S10000x64 S200000x1 S200000x64 where
  offsetDims := [1]
  collapsedSliceDims := [0]
  operandBatchingDims := []
  startIndicesBatchingDims := []
  startIndexMap := [0]
  indexVectorDim := 1
  sliceSizes := ![1, 64]
  wf := gather_S10000x64_S200000x1_S200000x64_1_0_n_n_0_1_164_wf
def gather_S10000x256_S200000x1_S200000x256_1_0_n_n_0_1_1256 : GatherDims S10000x256 S200000x1 S200000x256 where
  offsetDims := [1]
  collapsedSliceDims := [0]
  operandBatchingDims := []
  startIndicesBatchingDims := []
  startIndexMap := [0]
  indexVectorDim := 1
  sliceSizes := ![1, 256]
  wf := gather_S10000x256_S200000x1_S200000x256_1_0_n_n_0_1_1256_wf
def dot_S2000x320_S320x256_S2000x256_1_0_0_1_n_n : DotDims S2000x320 S320x256 S2000x256 where
  lhsContracting := [1]
  rhsContracting := [0]
  lhsNonContracting := [0]
  rhsNonContracting := [1]
  lhsBatch := []
  rhsBatch := []
  wf := dot_S2000x320_S320x256_S2000x256_1_0_0_1_n_n_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf

abbrev win0_0 : Pipeline.Window sig grid0 :=
  Pipeline.Window.ofSpec (Memref.whole main_v6) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg6) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg7) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg8) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S256x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg10) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v9) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v32) S2000x320.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v33) S320x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S256x256.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg16) S256.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v35) S2000x256.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v47) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg17) S256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg18) S256.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v48) S2000x256.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

class Facts : Prop extends Facts₀ where

variable [Facts]
-- ==== ReferenceIdeal.lean ====
abbrev S50000x256 : Shape := ⟨2, ![50000, 256]⟩
abbrev S200000 : Shape := ⟨1, ![200000]⟩
abbrev S10000x64 : Shape := ⟨2, ![10000, 64]⟩
abbrev S10000 : Shape := ⟨1, ![10000]⟩
abbrev S256x256 : Shape := ⟨2, ![256, 256]⟩
abbrev S256 : Shape := ⟨1, ![256]⟩
abbrev S320x256 : Shape := ⟨2, ![320, 256]⟩
abbrev S_ : Shape := ⟨0, ![]⟩
abbrev S200000x1 : Shape := ⟨2, ![200000, 1]⟩
abbrev S200000x256 : Shape := ⟨2, ![200000, 256]⟩
abbrev S1x256 : Shape := ⟨2, ![1, 256]⟩
abbrev S10000x256 : Shape := ⟨2, ![10000, 256]⟩
abbrev S10000x1 : Shape := ⟨2, ![10000, 1]⟩
abbrev S200000x64 : Shape := ⟨2, ![200000, 64]⟩
abbrev S200000x320 : Shape := ⟨2, ![200000, 320]⟩
abbrev S50000 : Shape := ⟨1, ![50000]⟩
abbrev S50000x1 : Shape := ⟨2, ![50000, 1]⟩

abbrev nBuf : Space → Nat
  | .hbm => 186
  | .vmem => 0
  | .smem => 0
  | _ => 0

abbrev hbmTy0_0 (i : Nat) : BufTy := match i % 128 with
  | 0 => ⟨S50000x256, .f32⟩
  | 1 => ⟨S200000, .i32⟩
  | 2 => ⟨S200000, .i32⟩
  | 3 => ⟨S10000x64, .f32⟩
  | 4 => ⟨S10000, .f32⟩
  | 5 => ⟨S256x256, .f32⟩
  | 6 => ⟨S256, .f32⟩
  | 7 => ⟨S256, .f32⟩
  | 8 => ⟨S256, .f32⟩
  | 9 => ⟨S256x256, .f32⟩
  | 10 => ⟨S256, .f32⟩
  | 11 => ⟨S320x256, .f32⟩
  | 12 => ⟨S256, .f32⟩
  | 13 => ⟨S256, .f32⟩
  | 14 => ⟨S256, .f32⟩
  | 15 => ⟨S256x256, .f32⟩
  | 16 => ⟨S256, .f32⟩
  | 17 => ⟨S256, .f32⟩
  | 18 => ⟨S256, .f32⟩
  | 19 => ⟨S_, .i32⟩
  | 20 => ⟨S200000, .i32⟩
  | 21 => ⟨S200000, .i1⟩
  | 22 => ⟨S_, .i32⟩
  | 23 => ⟨S200000, .i32⟩
  | 24 => ⟨S200000, .i32⟩
  | 25 => ⟨S200000, .i32⟩
  | 26 => ⟨S200000x1, .i32⟩
  | 27 => ⟨S200000x256, .f32⟩
  | 28 => ⟨S200000x256, .f32⟩
  | 29 => ⟨S1x256, .f32⟩
  | 30 => ⟨S200000x256, .f32⟩
  | 31 => ⟨S200000x256, .f32⟩
  | 32 => ⟨S_, .f32⟩
  | 33 => ⟨S200000, .f32⟩
  | 34 => ⟨S200000x1, .f32⟩
  | 35 => ⟨S_, .f32⟩
  | 36 => ⟨S200000x1, .f32⟩
  | 37 => ⟨S200000x1, .f32⟩
  | 38 => ⟨S200000x256, .f32⟩
  | 39 => ⟨S200000x256, .f32⟩
  | 40 => ⟨S200000x256, .f32⟩
  | 41 => ⟨S_, .f32⟩
  | 42 => ⟨S200000, .f32⟩
  | 43 => ⟨S200000x1, .f32⟩
  | 44 => ⟨S_, .f32⟩
  | 45 => ⟨S200000x1, .f32⟩
  | 46 => ⟨S200000x1, .f32⟩
  | 47 => ⟨S200000x256, .f32⟩
  | 48 => ⟨S200000x256, .f32⟩
  | 49 => ⟨S_, .f32⟩
  | 50 => ⟨S200000x1, .f32⟩
  | 51 => ⟨S200000x1, .f32⟩
  | 52 => ⟨S200000x1, .f32⟩
  | 53 => ⟨S200000x256, .f32⟩
  | 54 => ⟨S200000x256, .f32⟩
  | 55 => ⟨S1x256, .f32⟩
  | 56 => ⟨S200000x256, .f32⟩
  | 57 => ⟨S200000x256, .f32⟩
  | 58 => ⟨S1x256, .f32⟩
  | 59 => ⟨S200000x256, .f32⟩
  | 60 => ⟨S200000x256, .f32⟩
  | 61 => ⟨S_, .f32⟩
  | 62 => ⟨S200000x256, .f32⟩
  | 63 => ⟨S200000x256, .f32⟩
  | 64 => ⟨S200000x256, .f32⟩
  | 65 => ⟨S1x256, .f32⟩
  | 66 => ⟨S200000x256, .f32⟩
  | 67 => ⟨S200000x256, .f32⟩
  | 68 => ⟨S_, .f32⟩
  | 69 => ⟨S10000x256, .f32⟩
  | 70 => ⟨S200000x1, .i32⟩
  | 71 => ⟨S10000x256, .f32⟩
  | 72 => ⟨S10000x1, .f32⟩
  | 73 => ⟨S_, .f32⟩
  | 74 => ⟨S10000x1, .f32⟩
  | 75 => ⟨S10000x1, .f32⟩
  | 76 => ⟨S10000x256, .f32⟩
  | 77 => ⟨S10000x256, .f32⟩
  | 78 => ⟨S_, .i32⟩
  | 79 => ⟨S200000, .i32⟩
  | 80 => ⟨S200000, .i1⟩
  | 81 => ⟨S_, .i32⟩
  | 82 => ⟨S200000, .i32⟩
  | 83 => ⟨S200000, .i32⟩
  | 84 => ⟨S200000, .i32⟩
  | 85 => ⟨S200000x1, .i32⟩
  | 86 => ⟨S200000x64, .f32⟩
  | 87 => ⟨S_, .i32⟩
  | 88 => ⟨S200000, .i32⟩
  | 89 => ⟨S200000, .i1⟩
  | 90 => ⟨S_, .i32⟩
  | 91 => ⟨S200000, .i32⟩
  | 92 => ⟨S200000, .i32⟩
  | 93 => ⟨S200000, .i32⟩
  | 94 => ⟨S200000x1, .i32⟩
  | 95 => ⟨S200000x256, .f32⟩
  | 96 => ⟨S200000x320, .f32⟩
  | 97 => ⟨S200000x256, .f32⟩
  | 98 => ⟨S1x256, .f32⟩
  | 99 => ⟨S200000x256, .f32⟩
  | 100 => ⟨S200000x256, .f32⟩
  | 101 => ⟨S_, .f32⟩
  | 102 => ⟨S200000, .f32⟩
  | 103 => ⟨S200000x1, .f32⟩
  | 104 => ⟨S_, .f32⟩
  | 105 => ⟨S200000x1, .f32⟩
  | 106 => ⟨S200000x1, .f32⟩
  | 107 => ⟨S200000x256, .f32⟩
  | 108 => ⟨S200000x256, .f32⟩
  | 109 => ⟨S200000x256, .f32⟩
  | 110 => ⟨S_, .f32⟩
  | 111 => ⟨S200000, .f32⟩
  | 112 => ⟨S200000x1, .f32⟩
  | 113 => ⟨S_, .f32⟩
  | 114 => ⟨S200000x1, .f32⟩
  | 115 => ⟨S200000x1, .f32⟩
  | 116 => ⟨S200000x256, .f32⟩
  | 117 => ⟨S200000x256, .f32⟩
  | 118 => ⟨S_, .f32⟩
  | 119 => ⟨S200000x1, .f32⟩
  | 120 => ⟨S200000x1, .f32⟩
  | 121 => ⟨S200000x1, .f32⟩
  | 122 => ⟨S200000x256, .f32⟩
  | 123 => ⟨S200000x256, .f32⟩
  | 124 => ⟨S1x256, .f32⟩
  | 125 => ⟨S200000x256, .f32⟩
  | 126 => ⟨S200000x256, .f32⟩
  | 127 => ⟨S1x256, .f32⟩
  | _ => ⟨S50000x256, .f32⟩

abbrev hbmTy0_1 (i : Nat) : BufTy := match i % 128 with
  | 0 => ⟨S200000x256, .f32⟩
  | 1 => ⟨S200000x256, .f32⟩
  | 2 => ⟨S_, .f32⟩
  | 3 => ⟨S200000x256, .f32⟩
  | 4 => ⟨S200000x256, .f32⟩
  | 5 => ⟨S200000x256, .f32⟩
  | 6 => ⟨S1x256, .f32⟩
  | 7 => ⟨S200000x256, .f32⟩
  | 8 => ⟨S200000x256, .f32⟩
  | 9 => ⟨S_, .f32⟩
  | 10 => ⟨S200000x256, .f32⟩
  | 11 => ⟨S200000x256, .f32⟩
  | 12 => ⟨S_, .f32⟩
  | 13 => ⟨S50000x256, .f32⟩
  | 14 => ⟨S200000x1, .i32⟩
  | 15 => ⟨S50000x256, .f32⟩
  | 16 => ⟨S_, .f32⟩
  | 17 => ⟨S200000, .f32⟩
  | 18 => ⟨S_, .f32⟩
  | 19 => ⟨S50000, .f32⟩
  | 20 => ⟨S200000x1, .i32⟩
  | 21 => ⟨S50000, .f32⟩
  | 22 => ⟨S50000x1, .f32⟩
  | 23 => ⟨S_, .f32⟩
  | 24 => ⟨S50000x1, .f32⟩
  | 25 => ⟨S50000x1, .f32⟩
  | 26 => ⟨S50000x256, .f32⟩
  | 27 => ⟨S50000x256, .f32⟩
  | 28 => ⟨S_, .f32⟩
  | 29 => ⟨S50000, .f32⟩
  | 30 => ⟨S50000x1, .f32⟩
  | 31 => ⟨S_, .f32⟩
  | 32 => ⟨S50000x1, .f32⟩
  | 33 => ⟨S50000x1, .f32⟩
  | 34 => ⟨S50000x256, .f32⟩
  | 35 => ⟨S50000x256, .f32⟩
  | 36 => ⟨S50000x256, .f32⟩
  | 37 => ⟨S_, .f32⟩
  | 38 => ⟨S50000, .f32⟩
  | 39 => ⟨S50000x1, .f32⟩
  | 40 => ⟨S_, .f32⟩
  | 41 => ⟨S50000x1, .f32⟩
  | 42 => ⟨S50000x1, .f32⟩
  | 43 => ⟨S50000x256, .f32⟩
  | 44 => ⟨S50000x256, .f32⟩
  | 45 => ⟨S_, .f32⟩
  | 46 => ⟨S50000x1, .f32⟩
  | 47 => ⟨S50000x1, .f32⟩
  | 48 => ⟨S50000x1, .f32⟩
  | 49 => ⟨S50000x256, .f32⟩
  | 50 => ⟨S50000x256, .f32⟩
  | 51 => ⟨S1x256, .f32⟩
  | 52 => ⟨S50000x256, .f32⟩
  | 53 => ⟨S50000x256, .f32⟩
  | 54 => ⟨S1x256, .f32⟩
  | 55 => ⟨S50000x256, .f32⟩
  | 56 => ⟨S50000x256, .f32⟩
  | 57 => ⟨S50000x256, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_c : Ref sig .tc := ⟨.hbm, 19, rfl⟩
abbrev main_v0 : Ref sig .tc := ⟨.hbm, 20, rfl⟩
abbrev main_v1 : Ref sig .tc := ⟨.hbm, 21, rfl⟩
abbrev main_c_0 : Ref sig .tc := ⟨.hbm, 22, rfl⟩
abbrev main_v2 : Ref sig .tc := ⟨.hbm, 23, rfl⟩
abbrev main_v3 : Ref sig .tc := ⟨.hbm, 24, rfl⟩
abbrev main_v4 : Ref sig .tc := ⟨.hbm, 25, rfl⟩
abbrev main_v5 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_cst : Ref sig .tc := ⟨.hbm, 32, rfl⟩
abbrev main_v11 : Ref sig .tc := ⟨.hbm, 33, rfl⟩
abbrev main_v12 : Ref sig .tc := ⟨.hbm, 34, rfl⟩
abbrev main_cst_1 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_cst_2 : Ref sig .tc := ⟨.hbm, 41, rfl⟩
abbrev main_v18 : Ref sig .tc := ⟨.hbm, 42, rfl⟩
abbrev main_v19 : Ref sig .tc := ⟨.hbm, 43, rfl⟩
abbrev main_cst_3 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_v23 : Ref sig .tc := ⟨.hbm, 48, rfl⟩
abbrev main_cst_4 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call0_cst : Ref sig .tc := ⟨.hbm, 61, rfl⟩
abbrev main_call0_v0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_cst_5 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_cst_6 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_c_7 : Ref sig .tc := ⟨.hbm, 78, rfl⟩
abbrev main_v48 : Ref sig .tc := ⟨.hbm, 79, rfl⟩
abbrev main_v49 : Ref sig .tc := ⟨.hbm, 80, rfl⟩
abbrev main_c_8 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_c_9 : Ref sig .tc := ⟨.hbm, 87, rfl⟩
abbrev main_v55 : Ref sig .tc := ⟨.hbm, 88, rfl⟩
abbrev main_v56 : Ref sig .tc := ⟨.hbm, 89, rfl⟩
abbrev main_c_10 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_11 : Ref sig .tc := ⟨.hbm, 101, rfl⟩
abbrev main_v67 : Ref sig .tc := ⟨.hbm, 102, rfl⟩
abbrev main_v68 : Ref sig .tc := ⟨.hbm, 103, rfl⟩
abbrev main_cst_12 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_cst_13 : Ref sig .tc := ⟨.hbm, 110, rfl⟩
abbrev main_v74 : Ref sig .tc := ⟨.hbm, 111, rfl⟩
abbrev main_v75 : Ref sig .tc := ⟨.hbm, 112, rfl⟩
abbrev main_cst_14 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_15 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩
abbrev main_v90 : Ref sig .tc := ⟨.hbm, 129, rfl⟩
abbrev main_call1_cst : Ref sig .tc := ⟨.hbm, 130, rfl⟩
abbrev main_call1_v0 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_call2_cst : Ref sig .tc := ⟨.hbm, 137, rfl⟩
abbrev main_call2_v0 : Ref sig .tc := ⟨.hbm, 138, rfl⟩
abbrev main_v96 : Ref sig .tc := ⟨.hbm, 139, rfl⟩
abbrev main_cst_16 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_cst_17 : Ref sig .tc := ⟨.hbm, 144, rfl⟩
abbrev main_v100 : Ref sig .tc := ⟨.hbm, 145, rfl⟩
abbrev main_cst_18 : Ref sig .tc := ⟨.hbm, 146, rfl⟩
abbrev main_v101 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_cst_19 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_20 : Ref sig .tc := ⟨.hbm, 156, rfl⟩
abbrev main_v109 : Ref sig .tc := ⟨.hbm, 157, rfl⟩
abbrev main_v110 : Ref sig .tc := ⟨.hbm, 158, rfl⟩
abbrev main_cst_21 : Ref sig .tc := ⟨.hbm, 159, rfl⟩
abbrev main_v111 : Ref sig .tc := ⟨.hbm, 160, rfl⟩
abbrev main_v112 : Ref sig .tc := ⟨.hbm, 161, rfl⟩
abbrev main_v113 : Ref sig .tc := ⟨.hbm, 162, rfl⟩
abbrev main_v114 : Ref sig .tc := ⟨.hbm, 163, rfl⟩
abbrev main_v115 : Ref sig .tc := ⟨.hbm, 164, rfl⟩
abbrev main_cst_22 : Ref sig .tc := ⟨.hbm, 165, rfl⟩
abbrev main_v116 : Ref sig .tc := ⟨.hbm, 166, rfl⟩
abbrev main_v117 : Ref sig .tc := ⟨.hbm, 167, rfl⟩
abbrev main_cst_23 : Ref sig .tc := ⟨.hbm, 168, rfl⟩
abbrev main_v118 : Ref sig .tc := ⟨.hbm, 169, rfl⟩
abbrev main_v119 : Ref sig .tc := ⟨.hbm, 170, rfl⟩
abbrev main_v120 : Ref sig .tc := ⟨.hbm, 171, rfl⟩
abbrev main_v121 : Ref sig .tc := ⟨.hbm, 172, rfl⟩
abbrev main_cst_24 : Ref sig .tc := ⟨.hbm, 173, rfl⟩
abbrev main_v122 : Ref sig .tc := ⟨.hbm, 174, rfl⟩
abbrev main_v123 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_v129 : Ref sig .tc := ⟨.hbm, 181, rfl⟩
abbrev main_v130 : Ref sig .tc := ⟨.hbm, 182, rfl⟩
abbrev main_v131 : Ref sig .tc := ⟨.hbm, 183, rfl⟩
abbrev main_v132 : Ref sig .tc := ⟨.hbm, 184, rfl⟩
abbrev main_v133 : Ref sig .tc := ⟨.hbm, 185, rfl⟩

abbrev nD : Nat := 1
abbrev τ : Topo := Topo.v7x

variable {F : FTy → Type} [FloatOps F]

class Facts₀ : Prop where
  bcast_S_S200000 : S_.BroadcastsInDim S200000 (![] : Fin 0 → Fin S200000.rank)
  bcast_S200000_S200000x1_0 : S200000.BroadcastsInDim S200000x1 (![0] : Fin 1 → Fin S200000x1.rank)
  bcast_S256_S1x256_1 : S256.BroadcastsInDim S1x256 (![1] : Fin 1 → Fin S1x256.rank)
  bcast_S1x256_S200000x256_0_1 : S1x256.BroadcastsInDim S200000x256 (![0, 1] : Fin 2 → Fin S200000x256.rank)
  reducesTo_S200000x256_S200000_d1 : S200000x256.ReducesTo [1] S200000
  h_S_ : 0 < S_.numel
  bcast_S_S200000x1 : S_.BroadcastsInDim S200000x1 (![] : Fin 0 → Fin S200000x1.rank)
  bcast_S200000x1_S200000x256_0_1 : S200000x1.BroadcastsInDim S200000x256 (![0, 1] : Fin 2 → Fin S200000x256.rank)
  bcast_S_S200000x256 : S_.BroadcastsInDim S200000x256 (![] : Fin 0 → Fin S200000x256.rank)
  bcast_S_S10000x256 : S_.BroadcastsInDim S10000x256 (![] : Fin 0 → Fin S10000x256.rank)
  bcast_S10000_S10000x1_0 : S10000.BroadcastsInDim S10000x1 (![0] : Fin 1 → Fin S10000x1.rank)
  bcast_S_S10000x1 : S_.BroadcastsInDim S10000x1 (![] : Fin 0 → Fin S10000x1.rank)
  bcast_S10000x1_S10000x256_0_1 : S10000x1.BroadcastsInDim S10000x256 (![0, 1] : Fin 2 → Fin S10000x256.rank)
  concatenates_S200000x64_S200000x256_S200000x320_d1 : Shape.Concatenates [S200000x64, S200000x256] S200000x320 1
  bcast_S_S50000x256 : S_.BroadcastsInDim S50000x256 (![] : Fin 0 → Fin S50000x256.rank)
  bcast_S_S50000 : S_.BroadcastsInDim S50000 (![] : Fin 0 → Fin S50000.rank)
  bcast_S50000_S50000x1_0 : S50000.BroadcastsInDim S50000x1 (![0] : Fin 1 → Fin S50000x1.rank)
  bcast_S_S50000x1 : S_.BroadcastsInDim S50000x1 (![] : Fin 0 → Fin S50000x1.rank)
  bcast_S50000x1_S50000x256_0_1 : S50000x1.BroadcastsInDim S50000x256 (![0, 1] : Fin 2 → Fin S50000x256.rank)
  reducesTo_S50000x256_S50000_d1 : S50000x256.ReducesTo [1] S50000
  bcast_S1x256_S50000x256_0_1 : S1x256.BroadcastsInDim S50000x256 (![0, 1] : Fin 2 → Fin S50000x256.rank)
  gather_S50000x256_S200000x1_S200000x256_1_0_n_n_0_1_1256_wf : GatherDims.WF S50000x256 S200000x1 S200000x256 [1] [0] [] [0] [] 1 ![1, 256]
  dot_S200000x256_S256x256_S200000x256_1_0_0_1_n_n_wf : DotDims.WF S200000x256 S256x256 S200000x256 [1] [0] [0] [1] [] []
  scatter_S10000x256_S200000x1_S200000x256_1_0_0_1_wf : ScatterDims.WF S10000x256 S200000x1 S200000x256 [1] [0] [0] 1
  gather_S10000x64_S200000x1_S200000x64_1_0_n_n_0_1_164_wf : GatherDims.WF S10000x64 S200000x1 S200000x64 [1] [0] [] [0] [] 1 ![1, 64]
  gather_S10000x256_S200000x1_S200000x256_1_0_n_n_0_1_1256_wf : GatherDims.WF S10000x256 S200000x1 S200000x256 [1] [0] [] [0] [] 1 ![1, 256]
  dot_S200000x320_S320x256_S200000x256_1_0_0_1_n_n_wf : DotDims.WF S200000x320 S320x256 S200000x256 [1] [0] [0] [1] [] []
  scatter_S50000x256_S200000x1_S200000x256_1_0_0_1_wf : ScatterDims.WF S50000x256 S200000x1 S200000x256 [1] [0] [0] 1
  scatter_S50000_S200000x1_S200000_n_0_0_1_wf : ScatterDims.WF S50000 S200000x1 S200000 [] [0] [0] 1

variable [Facts₀]

def gather_S50000x256_S200000x1_S200000x256_1_0_n_n_0_1_1256 : GatherDims S50000x256 S200000x1 S200000x256 where
  offsetDims := [1]
  collapsedSliceDims := [0]
  operandBatchingDims := []
  startIndicesBatchingDims := []
  startIndexMap := [0]
  indexVectorDim := 1
  sliceSizes := ![1, 256]
  wf := gather_S50000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S10000x256_S200000x1_S200000x256_1_0_0_1 : ScatterDims S10000x256 S200000x1 S200000x256 where
  updateWindowDims := [1]
  insertedWindowDims := [0]
  scatterDimsToOperandDims := [0]
  indexVectorDim := 1
  wf := scatter_S10000x256_S200000x1_S200000x256_1_0_0_1_wf
def gather_S10000x64_S200000x1_S200000x64_1_0_n_n_0_1_164 : GatherDims S10000x64 S200000x1 S200000x64 where
  offsetDims := [1]
  collapsedSliceDims := [0]
  operandBatchingDims := []
  startIndicesBatchingDims := []
  startIndexMap := [0]
  indexVectorDim := 1
  sliceSizes := ![1, 64]
  wf := gather_S10000x64_S200000x1_S200000x64_1_0_n_n_0_1_164_wf
def gather_S10000x256_S200000x1_S200000x256_1_0_n_n_0_1_1256 : GatherDims S10000x256 S200000x1 S200000x256 where
  offsetDims := [1]
  collapsedSliceDims := [0]
  operandBatchingDims := []
  startIndicesBatchingDims := []
  startIndexMap := [0]
  indexVectorDim := 1
  sliceSizes := ![1, 256]
  wf := gather_S10000x256_S200000x1_S200000x256_1_0_n_n_0_1_1256_wf
def dot_S200000x320_S320x256_S200000x256_1_0_0_1_n_n : DotDims S200000x320 S320x256 S200000x256 where
  lhsContracting := [1]
  rhsContracting := [0]
  lhsNonContracting := [0]
  rhsNonContracting := [1]
  lhsBatch := []
  rhsBatch := []
  wf := dot_S200000x320_S320x256_S200000x256_1_0_0_1_n_n_wf
def scatter_S50000x256_S200000x1_S200000x256_1_0_0_1 : ScatterDims S50000x256 S200000x1 S200000x256 where
  updateWindowDims := [1]
  insertedWindowDims := [0]
  scatterDimsToOperandDims := [0]
  indexVectorDim := 1
  wf := scatter_S50000x256_S200000x1_S200000x256_1_0_0_1_wf
def scatter_S50000_S200000x1_S200000_n_0_0_1 : ScatterDims S50000 S200000x1 S200000 where
  updateWindowDims := []
  insertedWindowDims := [0]
  scatterDimsToOperandDims := [0]
  indexVectorDim := 1
  wf := scatter_S50000_S200000x1_S200000_n_0_0_1_wf

class Facts : Prop extends Facts₀ where

variable [Facts]
-- ==== Proof.KernelRun.lean ====
/-
  The idealized kernel's run with its result named: every weakly fair execution of @main terminates, nothing faulting,
  with the result buffer at the contents the last region's write-backs leave, and the argument arrays as launched.
-/
import proofs.«139584_j10677288698626_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run through the three regions and the host operations between them: at the end every buffer the thread holds
    is at the last boundary's contents, in particular the result buffer; each argument array reads back to its launch
    contents because no host operation and no region writes it. -/
theorem run_value : θ_run defs (onTc (τ := τ) (main (F := F))) ⟨m, fun _ => 0, ρ⟩ (fun r => ∀ c : Dev nD,
      r.2.mem ((c.tc : Thread nD τ).loc main_v48) = W6 m ρ c (Proc.devRef .tc main_v48)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v48 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c)⟩)

end Cert.KernelIdeal.RunValue

end
-- ==== Proof.LibDense.lean ====
/-
  Dense layers read as functions of rows, at the ideal values.

  A dense layer of an MLP takes an [A, K] matrix of rows, a [K, N] weight matrix and an [N] bias to the [A, N]
  matrix whose entry (r, n) is  sum_k x(r, k) * w(k, n) + b(n).  Entry (r, n) depends on row r of x only, so the
  layer applied to a block of rows is the block of the layer applied to all rows; that is what lets a kernel
  that walks over row blocks be compared with a reference that multiplies whole matrices.

  Two spellings of the layer are read to this one function: the kernel's (the operands narrowed to bf16, which
  changes nothing at the ideal values; a matrix product accumulated into a zero splat; the bias cast to one row
  and broadcast down the rows) and the host's (a dot_general; the bias broadcast to one row, then down the rows).
  Likewise the tanh form of gelu,  x * (1/2 * (1 + tanh (c1 * (x + c0 * x^3)))),  is read pointwise in the
  kernel's spelling (x^3 as x * (x * x), splatted scalars) and the host's (x^3 as (x * x) * x, broadcast
  constants); the two cubes agree because multiplication of extended reals is commutative.  All of it is generic in the extents.
-/
import Idealize.ShloMosaic.Lib.KernelVsHost
import Idealize.ShloMosaic.Lib.ValueIdx
import Idealize.ShloMosaic.Lib.Pipeline.Value
import Idealize.ShloMosaic.PureOps.Ideal.Laws

noncomputable section

open scoped BigOperators

namespace Cert.LibDense

open Idealize.ShloMosaic Idealize.ShloMosaic.ValueIdx

/-! ## The contraction of a plain matrix product as a sum over the shared axis -/

/-- For the plain dimension numbers (rows x contraction times contraction x columns) the contraction index is
    its one coordinate, and the operand indices at output (r, n) and contraction k are (r, k) and (k, n). -/
theorem plain_sum (A K N : Nat) (l : (⟨2, ![A, K]⟩ : Shape).Idx → EReal) (r : (⟨2, ![K, N]⟩ : Shape).Idx → EReal)
    (j : (⟨2, ![A, N]⟩ : Shape).Idx) :
    ∑ k : (DotDims.plain A K N).contr.Idx, l ((DotDims.plain A K N).lhsIdx j k) * r ((DotDims.plain A K N).rhsIdx j k)
      = ∑ k : Fin K, l (ix2 (j 0 : Fin A) k) * r (ix2 k (j 1 : Fin N)) := by
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx j ((contrEquiv1 (DotDims.plain A K N) K rfl rfl).symm k) = ix2 (j 0 : Fin A) k := by
    funext a
    match a with
    | ⟨0, _⟩ => rfl
    | ⟨1, _⟩ => exact Fin.ext hk
  have er : (DotDims.plain A K N).rhsIdx j ((contrEquiv1 (DotDims.plain A K N) K rfl rfl).symm k) = ix2 k (j 1 : Fin N) := by
    funext a
    match a with
    | ⟨0, _⟩ => exact Fin.ext hk
    | ⟨1, _⟩ => rfl
  exact congrArg₂ (· * ·) (congrArg l el) (congrArg r er)

/-! ## The bias laid along every row -/

/-- The kernel's spelling: the bias cast to one row and broadcast down the rows reads the bias at the column. -/
theorem bias_rows_kernel {A N : Nat} {α : Type} (b : (⟨1, ![N]⟩ : Shape).Idx → α)
    (h1 : (⟨1, ![N]⟩ : Shape).ShapeCasts ⟨2, ![1, N]⟩) (hb : (⟨2, ![1, N]⟩ : Shape).Broadcasts ⟨2, ![A, N]⟩)
    (i : (⟨2, ![A, N]⟩ : Shape).Idx) :
    broadcastTo ⟨2, ![A, N]⟩ (shapeCast ⟨2, ![1, N]⟩ b h1) hb i = b (ix1 (i 1 : Fin N)) := by
  have e1 := broadcastTo_apply (shapeCast ⟨2, ![1, N]⟩ b h1) hb i (ix2 (0 : Fin 1) (i 1 : Fin N)) (by
    intro a
    match a with
    | ⟨0, _⟩ => rfl
    | ⟨1, _⟩ =>
      show (i 1).val = if N = 1 then 0 else (i 1).val
      split
      · have := (i 1).isLt; have e : (i 1).val < N := this; omega
      · rfl)
  have e2 := shapeCast_apply b h1 (ix2 (0 : Fin 1) (i 1 : Fin N)) (ix1 (i 1 : Fin N)) (by
    rw [Shape.rowMajor_val_two, Shape.rowMajor_val_one]; show (i 1).val = 0 * N + (i 1).val; omega)
  exact e1.trans e2

/-- The host's spelling: the bias broadcast to one row along axis 1, then down the rows, reads the bias at the column. -/
theorem bias_rows_host_ix {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1]) (p : Fin A) (q : Fin N) :
    broadcastInDim ⟨2, ![A, N]⟩ ![0, 1] hbc (broadcastInDim ⟨2, ![1, N]⟩ ![1] hd b) (ix2 p q) = b (ix1 q) := by
  rw [broadcastInDim_oneRow_apply hbc _ p q]
  refine broadcastInDim_apply ![1] hd b (ix2 (0 : Fin 1) q) (ix1 q) ?_
  intro a
  match a with
  | ⟨0, _⟩ =>
    show q.val = if N = 1 then 0 else q.val
    split
    · have := q.isLt; omega
    · rfl

/-- The same at any index. -/
theorem bias_rows_host {A N : Nat} {α : Type} (b : (⟨1, ![N]⟩ : Shape).Idx → α)
    (hd : (⟨1, ![N]⟩ : Shape).BroadcastsInDim ⟨2, ![1, N]⟩ ![1])
    (hbc : (⟨2, ![1, N]⟩ : Shape).BroadcastsInDim ⟨2, ![A, N]⟩ ![0, 1])
    (i : (⟨2, ![A, N]⟩ : Shape).Idx) :
    broadcastInDim ⟨2, ![A, N]⟩ ![0, 1] hbc (broadcastInDim ⟨2, ![1, N]⟩ ![1] hd b) i = b (ix1 (i 1 : Fin N)) := by
  obtain ⟨p, q, rfl⟩ : ∃ (p : Fin A) (q : Fin N), i = ix2 p q := ⟨i 0, i 1, eq_ix2 i⟩
  exact bias_rows_host_ix b hd hbc p q

/-! ## The dense layer -/

/-- The dense layer on rows: entry (r, n) is the sum over k of x(r, k) * w(k, n), plus b(n). -/
def dense (A K N : Nat) (x : (⟨2, ![A, K]⟩ : Shape).Idx → EReal) (w : (⟨2, ![K, N]⟩ : Shape).Idx → EReal)
    (b : (⟨1, ![N]⟩ : Shape).Idx → EReal) : (⟨2, ![A, N]⟩ : Shape).Idx → EReal :=
  fun j => (∑ k : Fin K, x (ix2 (j 0 : Fin A) k) * w (ix2 k (j 1 : Fin N))) + b (ix1 (j 1 : Fin N))

/-- The kernel's layer (bf16 operands, zero accumulator, bias cast and broadcast) is the dense layer. -/
theorem dense_kernel {A K N : Nat} (x : FVec Ideal ⟨2, ![A, K]⟩ .f32) (w : FVec Ideal ⟨2, ![K, N]⟩ .f32)
    (b : FVec Ideal ⟨1, ![N]⟩ .f32) (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul (DotDims.plain A K N) none (truncf .bf16 x hlt) (truncf .bf16 w hlt) (constant ⟨2, ![A, N]⟩ .f32 0x00000000#32))
      (broadcastTo ⟨2, ![A, N]⟩ (shapeCast ⟨2, ![1, N]⟩ b h1) hb) = dense A K N x w b := by
  funext j
  rw [addf_apply, bias_rows_kernel b h1 hb j]
  refine congrArg (· + b (ix1 (j 1 : Fin N))) ?_
  refine (Ideal.matmul_constant_zero_apply (DotDims.plain A K N) none (truncf .bf16 x hlt) (truncf .bf16 w hlt) j).trans ?_
  exact plain_sum A K N x w j

/-- The host's layer (dot_general, bias broadcast twice) is the dense layer. -/
theorem dense_host {A K N : Nat} (x : FVec Ideal ⟨2, ![A, K]⟩ .f32) (w : FVec Ideal ⟨2, ![K, N]⟩ .f32)
    (b : FVec Ideal ⟨1, ![N]⟩ .f32)
    (hd : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral (DotDims.plain A K N) none x w)
      (broadcastInDim ⟨2, ![A, N]⟩ ![0, 1] hbc (broadcastInDim ⟨2, ![1, N]⟩ ![1] hd b)) = dense A K N x w b := by
  funext j
  rw [addf_apply, bias_rows_host b hd hbc j]
  refine congrArg (· + b (ix1 (j 1 : Fin N))) ?_
  refine (Ideal.dotGeneral_apply (DotDims.plain A K N) none _ x w j).trans ?_
  exact plain_sum A K N x w j

/-- Entry (p, q) of the layer depends on row p only: two matrices that agree on a row give the same entry there. -/
theorem dense_row {A A' K N : Nat} (x : (⟨2, ![A, K]⟩ : Shape).Idx → EReal) (x' : (⟨2, ![A', K]⟩ : Shape).Idx → EReal)
    (w : (⟨2, ![K, N]⟩ : Shape).Idx → EReal) (b : (⟨1, ![N]⟩ : Shape).Idx → EReal) (p : Fin A) (r : Fin A') (q : Fin N)
    (h : ∀ k : Fin K, x (ix2 p k) = x' (ix2 r k)) :
    dense A K N x w b (ix2 p q) = dense A' K N x' w b (ix2 r q) := by
  show (∑ k : Fin K, x (ix2 p k) * w (ix2 k q)) + b (ix1 q) = (∑ k : Fin K, x' (ix2 r k) * w (ix2 k q)) + b (ix1 q)
  rw [Finset.sum_congr rfl fun k _ => by rw [h k]]

/-! ## gelu, tanh form -/

/-- gelu's tanh approximation on one extended real, the four f32 constants at their binary values. -/
def gelu (x : EReal) : EReal :=
  x * (Ideal.ofBits .f32 0x3F000000#32 * (Ideal.ofBits .f32 0x3F800000#32
    + Ideal.tanh (Ideal.ofBits .f32 0x3F4C422A#32 * (x + Ideal.ofBits .f32 0x3D372713#32 * (x * (x * x))))))

/-- The kernel's spelling, pointwise: splatted scalars, the cube as x * (x * x). -/
theorem gelu_kernel {s : Shape} (v : FVec Ideal s .f32) :
    mulf v (mulf (broadcast s (Scalar.ofBits (F := Ideal) .f32 0x3F000000#32))
      (addf (broadcast s (Scalar.ofBits (F := Ideal) .f32 0x3F800000#32))
        (tanh (mulf (broadcast s (Scalar.ofBits (F := Ideal) .f32 0x3F4C422A#32))
          (addf v (mulf (broadcast s (Scalar.ofBits (F := Ideal) .f32 0x3D372713#32)) (mulf v (mulf v v))))))))
      = fun j => gelu (v j) := rfl

/-- The host's spelling, pointwise: broadcast constants, the cube as (x * x) * x. -/
theorem gelu_host {s : Shape} (v : FVec Ideal s .f32) (hS : (⟨0, ![]⟩ : Shape).BroadcastsInDim s (![] : Fin 0 → Fin s.rank)) :
    mulf v (mulf (broadcastInDim s ![] hS (constant (F := Ideal) ⟨0, ![]⟩ .f32 0x3F000000#32))
      (addf (broadcastInDim s ![] hS (constant (F := Ideal) ⟨0, ![]⟩ .f32 0x3F800000#32))
        (Host.tanh (mulf (broadcastInDim s ![] hS (constant (F := Ideal) ⟨0, ![]⟩ .f32 0x3F4C422A#32))
          (addf v (mulf (broadcastInDim s ![] hS (constant (F := Ideal) ⟨0, ![]⟩ .f32 0x3D372713#32)) (mulf (mulf v v) v)))))))
      = fun j => gelu (v j) := by
  funext j
  show v j * (Ideal.ofBits .f32 0x3F000000#32 * (Ideal.ofBits .f32 0x3F800000#32
    + Ideal.tanh (Ideal.ofBits .f32 0x3F4C422A#32 * (v j + Ideal.ofBits .f32 0x3D372713#32 * ((v j * v j) * v j))))) = gelu (v j)
  rw [mul_comm (v j * v j) (v j)]
  rfl

end Cert.LibDense

end
-- ==== Proof.LibLayout.lean ====
/-
  Layout operations of small shapes read at an index written by its coordinates: a vector viewed as a column, a column
  repeated along each row, and the row-major regrouping of an array's two leading axes into one axis and back.
  Each is the library's general reading of the operation (equal row-major positions for a cast, trailing coordinates
  for a broadcast) with the two positions worked out for the shapes at hand.
-/
import Idealize.ShloMosaic.Lib.Pipeline.Value
import Idealize.ShloMosaic.Lib.ValueIdx

namespace Cert.LibLayout

open Idealize.ShloMosaic Idealize.ShloMosaic.ValueIdx

variable {α : Type}

/-- An `[a]` array cast to the column `[a, 1]` reads, at `(i, u)`, the operand at `i`: position `i · 1 + 0` is `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[n0, n1, n2]` array with its two leading axes regrouped into one of extent `N` reads, at `(r, c)` with
    `r = s · n1 + b`, the operand at `(s, b, c)`: both sit at row-major position `(s · n1 + b) · n2 + c`. -/
theorem shapeCast_abc_dc_apply {n0 n1 n2 N : ℕ} (x : (⟨3, ![n0, n1, n2]⟩ : Shape).Idx → α)
    (h : (⟨3, ![n0, n1, n2]⟩ : Shape).ShapeCasts ⟨2, ![N, n2]⟩) (r : Fin N) (c : Fin n2) (s : Fin n0) (b : Fin n1)
    (hr : r.val = s.val * n1 + b.val) :
    shapeCast ⟨2, ![N, n2]⟩ x h (ix2 r c) = x (ix3 s b c) :=
  shapeCast_apply x h _ _ (by
    rw [Shape.rowMajor_val_three, Shape.rowMajor_val_two]
    show (s.val * n1 + b.val) * n2 + c.val = r.val * n2 + c.val
    rw [hr])

/-- The way back: an `[N, n2]` array with its leading axis split into `[n0, n1]` reads, at `(s, b, c)`, the operand at
    `(r, c)` for `r = s · n1 + b`. -/
theorem shapeCast_dc_abc_apply {n0 n1 n2 N : ℕ} (x : (⟨2, ![N, n2]⟩ : Shape).Idx → α)
    (h : (⟨2, ![N, n2]⟩ : Shape).ShapeCasts ⟨3, ![n0, n1, n2]⟩) (s : Fin n0) (b : Fin n1) (c : Fin n2) (r : Fin N)
    (hr : r.val = s.val * n1 + b.val) :
    shapeCast ⟨3, ![n0, n1, n2]⟩ x h (ix3 s b c) = x (ix2 r c) :=
  shapeCast_apply x h _ _ (by
    rw [Shape.rowMajor_val_three, Shape.rowMajor_val_two]
    show r.val * n2 + c.val = (s.val * n1 + b.val) * n2 + c.val
    rw [hr])

end Cert.LibLayout
-- ==== Proof.LibReduceRead.lean ====
/-
  Reductions of a matrix along one axis, read at an index, at the ideal instance and generic in the extents.

  * the sum of an [a, b] matrix along the rows (axis 0) at column e is the sum over the rows of the entries of column e;
  * the sum along the lanes (axis 1) at row r is the sum over the lanes of the entries of row r;
  * the sum, and the maximum started from the bottom element, of an [a, 1] column along its rows: the sum over the
    rows, and the fold of max over the rows.
  Each is the library's reading of a one-axis reduction (the reduced index with the coordinate put back on the dropped
  axis) with that index written by its coordinates.
-/
import Idealize.ShloMosaic.Lib.ValueIdx
import Idealize.ShloMosaic.PureOps.Ideal.Laws

noncomputable section

open scoped BigOperators

namespace Cert.LibReduceRead

open Idealize.ShloMosaic Idealize.ShloMosaic.ValueIdx

/-- Column sums: the sum along the rows, read at column e. -/
theorem colSum_apply {a b : ℕ} (X : FVec Ideal ⟨2, ![a, b]⟩ .f32) (h : (⟨2, ![a, b]⟩ : Shape).Reduces [0] ⟨1, ![b]⟩)
    (hφ : FKind.Formats .f32) (hacc : (0x00000000#32 : BitVec 32) = FKind.add.neutral .f32 hφ) (e : Fin b) :
    multiReduction .add [0] ⟨1, ![b]⟩ X 0x00000000#32 h hφ hacc (ix1 e) = ∑ s : Fin a, X (ix2 s e) := by
  refine (Ideal.multiReduction_add_single X _ h hφ hacc (ix1 e)).trans ?_
  show ∑ s : Fin a, _ = _
  exact Finset.sum_congr rfl fun s _ => congrArg X (funext fun c => Fin.ext (by
    match c with
    | ⟨0, _⟩ => rfl
    | ⟨1, _⟩ => rfl))

/-- Row sums: the sum along the lanes, read at row r. -/
theorem rowSum_apply {a b : ℕ} (X : FVec Ideal ⟨2, ![a, b]⟩ .f32) (h : (⟨2, ![a, b]⟩ : Shape).Reduces [1] ⟨1, ![a]⟩)
    (hφ : FKind.Formats .f32) (hacc : (0x00000000#32 : BitVec 32) = FKind.add.neutral .f32 hφ) (r : Fin a) :
    multiReduction .add [1] ⟨1, ![a]⟩ X 0x00000000#32 h hφ hacc (ix1 r) = ∑ k : Fin b, X (ix2 r k) := by
  refine (Ideal.multiReduction_add_single X _ h hφ hacc (ix1 r)).trans ?_
  show ∑ k : Fin b, _ = _
  exact Finset.sum_congr rfl fun k _ => congrArg X (funext fun c => Fin.ext (by
    match c with
    | ⟨0, _⟩ => rfl
    | ⟨1, _⟩ => rfl))

/-- The row index a one-entry result puts back under a column: (s, 0). -/
theorem lift_col {a : ℕ} (h : (⟨2, ![a, 1]⟩ : Shape).Reduces [0] ⟨1, ![1]⟩) (j : (⟨1, ![1]⟩ : Shape).Idx) (s : Fin a) :
    h.lift j s = ix2 s (0 : Fin 1) :=
  funext fun c => Fin.ext (by
    match c with
    | ⟨0, _⟩ => rfl
    | ⟨1, _⟩ =>
      show (j ⟨0, _⟩).val = 0
      have hj : (j ⟨0, Nat.one_pos⟩).val < 1 := (j ⟨0, Nat.one_pos⟩).isLt
      omega)

/-- The sum of a column along its rows. -/
theorem colSum1_apply {a : ℕ} (X : FVec Ideal ⟨2, ![a, 1]⟩ .f32) (h : (⟨2, ![a, 1]⟩ : Shape).Reduces [0] ⟨1, ![1]⟩)
    (hφ : FKind.Formats .f32) (hacc : (0x00000000#32 : BitVec 32) = FKind.add.neutral .f32 hφ)
    (j : (⟨1, ![1]⟩ : Shape).Idx) :
    multiReduction .add [0] ⟨1, ![1]⟩ X 0x00000000#32 h hφ hacc j = ∑ s : Fin a, X (ix2 s (0 : Fin 1)) := by
  refine (Ideal.multiReduction_add_single X _ h hφ hacc j).trans ?_
  show ∑ s : Fin a, _ = _
  exact Finset.sum_congr rfl fun s _ => congrArg X (lift_col h j s)

/-- The maximum of a column along its rows, started from the bottom element's word: the fold of max over the rows. -/
theorem colMax1_apply {a : ℕ} (X : FVec Ideal ⟨2, ![a, 1]⟩ .f32) (h : (⟨2, ![a, 1]⟩ : Shape).Reduces [0] ⟨1, ![1]⟩)
    (hφ : FKind.Formats .f32) (hacc : (0xFF800000#32 : BitVec 32) = FKind.maximumf.neutral .f32 hφ)
    (j : (⟨1, ![1]⟩ : Shape).Idx) :
    multiReduction .maximumf [0] ⟨1, ![1]⟩ X 0xFF800000#32 h hφ hacc j
      = (Finset.univ : Finset (Fin a)).fold max (Ideal.ofBits .f32 0xFF800000#32) (fun s => X (ix2 s (0 : Fin 1))) := by
  refine (Ideal.multiReduction_maximumf_single X _ h hφ hacc j).trans ?_
  show (Finset.univ : Finset (Fin a)).fold max (Ideal.ofBits .f32 0xFF800000#32) _ = _
  exact congrArg (fun f => (Finset.univ : Finset (Fin a)).fold max (Ideal.ofBits .f32 0xFF800000#32) f)
    (funext fun s => congrArg X (lift_col h j s))

end Cert.LibReduceRead

end
-- ==== Proof.LibHostRows.lean ====
/-
  Host operations of a layer normalisation over the trailing axis, read at an index written by its coordinates, at the
  ideal values and generic in the extents.

  A reference written with jnp normalises along the last axis of an [a, b, c] or an [a, c] array: it sums along that
  axis, puts the axis back with extent one (a broadcast_in_dim to [a, b, 1] or [a, 1]), divides by a broadcast scalar,
  and lays the result along the axis again (a broadcast_in_dim to the full shape).  Gains and offsets arrive as [b, c]
  or [c] arrays laid along the leading axis.  Each of these operations is read here at a coordinate index:
  * the host's float sum along the last axis of a rank-3 and of a rank-2 array, as the initial value plus a plain sum;
  * the unit trailing axis put back, and the array with a unit trailing axis laid along that axis;
  * a [b, c] array laid along a new leading axis, in the two steps jnp prints ([b, c] -> [1, b, c] -> [a, b, c]);
  * a flat [N] array viewed as [b, c] with N = b * c;
  * the matrix product of an [a, k] and a [k, n] array (plain dimension numbers) as the sum over the shared axis.
-/
import Idealize.ShloMosaic.Lib.Pipeline.Value
import Idealize.ShloMosaic.Lib.ValueIdx
import Idealize.ShloMosaic.Lib.IdealHost
import Idealize.ShloMosaic.PureOps.Ideal.Laws

noncomputable section

open scoped BigOperators

namespace Cert.LibHostRows

open Idealize.ShloMosaic Idealize.ShloMosaic.ValueIdx

variable {α : Type}

/-! ## Sums along the last axis -/

/-- The host's float sum of an [a, b, c] array along its last axis, at (r, g): the initial value plus the sum over the
    last axis of the entries (r, g, k). -/
theorem hostSumLast3_apply {a b c : ℕ} {u : Shape} (x : FVec Ideal ⟨3, ![a, b, c]⟩ .f32) (init : u.Idx → Ideal .f32)
    (h' : (⟨3, ![a, b, c]⟩ : Shape).ReducesTo [2] ⟨2, ![a, b]⟩) (h : (⟨3, ![a, b, c]⟩ : Shape).Reduces [2] ⟨2, ![a, b]⟩)
    (hu : 0 < u.numel) (r : Fin a) (g : Fin b) :
    Host.reduceAdd x init h' hu (ix2 r g) = init (Shape.Idx.first hu) + ∑ k : Fin c, x (ix3 r g k) := by
  refine (hostReduceAdd_apply x init h' hu (ix2 r g)).trans ?_
  refine (Ideal.hostReduceAdd_single h' h x _ (ix2 r g)).trans ?_
  show init (Shape.Idx.first hu) + ∑ k : Fin c, _ = _
  exact congrArg (init (Shape.Idx.first hu) + ·) (Finset.sum_congr rfl fun k _ => congrArg x (funext fun d => Fin.ext (by
    match d with
    | ⟨0, _⟩ => rfl
    | ⟨1, _⟩ => rfl
    | ⟨2, _⟩ => rfl)))

/-- The host's float sum of an [a, c] array along its last axis, at row r. -/
theorem hostSumLast2_apply {a c : ℕ} {u : Shape} (x : FVec Ideal ⟨2, ![a, c]⟩ .f32) (init : u.Idx → Ideal .f32)
    (h' : (⟨2, ![a, c]⟩ : Shape).ReducesTo [1] ⟨1, ![a]⟩) (h : (⟨2, ![a, c]⟩ : Shape).Reduces [1] ⟨1, ![a]⟩)
    (hu : 0 < u.numel) (r : Fin a) :
    Host.reduceAdd x init h' hu (ix1 r) = init (Shape.Idx.first hu) + ∑ k : Fin c, x (ix2 r k) := by
  refine (hostReduceAdd_apply x init h' hu (ix1 r)).trans ?_
  refine (Ideal.hostReduceAdd_single h' h x _ (ix1 r)).trans ?_
  show init (Shape.Idx.first hu) + ∑ k : Fin c, _ = _
  exact congrArg (init (Shape.Idx.first hu) + ·) (Finset.sum_congr rfl fun k _ => congrArg x (funext fun d => Fin.ext (by
    match d with
    | ⟨0, _⟩ => rfl
    | ⟨1, _⟩ => rfl)))

/-! ## The unit trailing axis -/

/-- An [a, b] array given a unit trailing axis reads, at (r, g, 0), the operand at (r, g). -/
theorem addLast3_apply {a b : ℕ} (x : (⟨2, ![a, b]⟩ : Shape).Idx → α)
    (h : (⟨2, ![a, b]⟩ : Shape).BroadcastsInDim ⟨3, ![a, b, 1]⟩ ![0, 1]) (r : Fin a) (g : Fin b) (z : Fin 1) :
    broadcastInDim ⟨3, ![a, b, 1]⟩ ![0, 1] h x (ix3 r g z) = x (ix2 r g) := by
  refine broadcastInDim_apply ![0, 1] h x (ix3 r g z) (ix2 r g) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl

/-- An [a] array given a unit trailing axis reads, at (r, 0), the operand at r. -/
theorem addLast2_apply {a : ℕ} (x : (⟨1, ![a]⟩ : Shape).Idx → α)
    (h : (⟨1, ![a]⟩ : Shape).BroadcastsInDim ⟨2, ![a, 1]⟩ ![0]) (r : Fin a) (z : Fin 1) :
    broadcastInDim ⟨2, ![a, 1]⟩ ![0] h x (ix2 r z) = x (ix1 r) := by
  refine broadcastInDim_apply ![0] h x (ix2 r z) (ix1 r) fun ax => ?_
  match ax with
  | ⟨0, _⟩ =>
    show r.val = if a = 1 then 0 else r.val
    split
    · have := r.isLt; omega
    · rfl

/-- An [a, b, 1] array laid along its last axis reads, at (r, g, k), the operand at (r, g, 0). -/
theorem alongLast3_apply {a b c : ℕ} (x : (⟨3, ![a, b, 1]⟩ : Shape).Idx → α)
    (h : (⟨3, ![a, b, 1]⟩ : Shape).BroadcastsInDim ⟨3, ![a, b, c]⟩ ![0, 1, 2]) (r : Fin a) (g : Fin b) (k : Fin c) :
    broadcastInDim ⟨3, ![a, b, c]⟩ ![0, 1, 2] h x (ix3 r g k) = x (ix3 r g (0 : Fin 1)) := by
  refine broadcastInDim_apply ![0, 1, 2] h x (ix3 r g k) (ix3 r g (0 : Fin 1)) fun ax => ?_
  match ax with
  | ⟨0, _⟩ =>
    show r.val = if a = 1 then 0 else r.val
    split
    · have := r.isLt; omega
    · rfl
  | ⟨1, _⟩ =>
    show g.val = if b = 1 then 0 else g.val
    split
    · have := g.isLt; omega
    · rfl
  | ⟨2, _⟩ => rfl

/-- An [a, 1] array laid along its last axis reads, at (r, k), the operand at (r, 0). -/
theorem alongLast2_apply {a c : ℕ} (x : (⟨2, ![a, 1]⟩ : Shape).Idx → α)
    (h : (⟨2, ![a, 1]⟩ : Shape).BroadcastsInDim ⟨2, ![a, c]⟩ ![0, 1]) (r : Fin a) (k : Fin c) :
    broadcastInDim ⟨2, ![a, c]⟩ ![0, 1] h x (ix2 r k) = x (ix2 r (0 : Fin 1)) := by
  refine broadcastInDim_apply ![0, 1] h x (ix2 r k) (ix2 r (0 : Fin 1)) fun ax => ?_
  match ax with
  | ⟨0, _⟩ =>
    show r.val = if a = 1 then 0 else r.val
    split
    · have := r.isLt; omega
    · rfl
  | ⟨1, _⟩ => rfl

/-! ## A [b, c] array laid along a new leading axis -/

/-- A [b, c] array broadcast to [1, b, c] and then to [a, b, c] reads, at (r, g, k), the operand at (g, k). -/
theorem alongFirst3_apply {a b c : ℕ} (x : (⟨2, ![b, c]⟩ : Shape).Idx → α)
    (h1 : (⟨2, ![b, c]⟩ : Shape).BroadcastsInDim ⟨3, ![1, b, c]⟩ ![1, 2])
    (h2 : (⟨3, ![1, b, c]⟩ : Shape).BroadcastsInDim ⟨3, ![a, b, c]⟩ ![0, 1, 2]) (r : Fin a) (g : Fin b) (k : Fin c) :
    broadcastInDim ⟨3, ![a, b, c]⟩ ![0, 1, 2] h2 (broadcastInDim ⟨3, ![1, b, c]⟩ ![1, 2] h1 x) (ix3 r g k) = x (ix2 g k) := by
  refine (broadcastInDim_apply ![0, 1, 2] h2 _ (ix3 r g k) (ix3 (0 : Fin 1) g k) fun ax => ?_).trans ?_
  · match ax with
    | ⟨0, _⟩ => rfl
    | ⟨1, _⟩ =>
      show g.val = if b = 1 then 0 else g.val
      split
      · have := g.isLt; omega
      · rfl
    | ⟨2, _⟩ =>
      show k.val = if c = 1 then 0 else k.val
      split
      · have := k.isLt; omega
      · rfl
  · refine broadcastInDim_apply ![1, 2] h1 x (ix3 (0 : Fin 1) g k) (ix2 g k) fun ax => ?_
    match ax with
    | ⟨0, _⟩ =>
      show g.val = if b = 1 then 0 else g.val
      split
      · have := g.isLt; omega
      · rfl
    | ⟨1, _⟩ =>
      show k.val = if c = 1 then 0 else k.val
      split
      · have := k.isLt; omega
      · rfl

/-- A flat [N] array viewed as [b, c] reads, at (g, k), the operand at position q = g * c + k. -/
theorem shapeCast_n_bc_apply {b c N : ℕ} (x : (⟨1, ![N]⟩ : Shape).Idx → α)
    (h : (⟨1, ![N]⟩ : Shape).ShapeCasts ⟨2, ![b, c]⟩) (g : Fin b) (k : Fin c) (q : Fin N) (hq : q.val = g.val * c + k.val) :
    shapeCast ⟨2, ![b, c]⟩ x h (ix2 g k) = x (ix1 q) :=
  shapeCast_apply x h _ _ (by
    rw [Shape.rowMajor_val_two, Shape.rowMajor_val_one]
    show q.val = g.val * c + k.val
    exact hq)

/-! ## The matrix product -/

/-- The dimension numbers of a plain matrix product, whatever proof of well-formedness they carry. -/
theorem hostDot_apply {A K N : ℕ} (d : DotDims ⟨2, ![A, K]⟩ ⟨2, ![K, N]⟩ ⟨2, ![A, N]⟩) (hd : d = DotDims.plain A K N)
    (x : FVec Ideal ⟨2, ![A, K]⟩ .f32) (w : FVec Ideal ⟨2, ![K, N]⟩ .f32) (r : Fin A) (n : Fin N) :
    Host.dotGeneral d none x w (ix2 r n) = ∑ k : Fin K, x (ix2 r k) * w (ix2 k n) := by
  subst hd
  refine (Ideal.dotGeneral_apply (DotDims.plain A K N) none _ x w (ix2 r n)).trans ?_
  rw [← Equiv.sum_comp (contrEquiv1 (DotDims.plain A K N) K rfl rfl).symm]
  refine Finset.sum_congr rfl fun k _ => ?_
  have hk := contrEquiv1_symm_val (DotDims.plain A K N) K rfl rfl k
  have el : (DotDims.plain A K N).lhsIdx (ix2 r n) ((contrEquiv1 (DotDims.plain A K N) K rfl rfl).symm k) = ix2 r k := by
    funext a
    match a with
    | ⟨0, _⟩ => rfl
    | ⟨1, _⟩ => exact Fin.ext hk
  have er : (DotDims.plain A K N).rhsIdx (ix2 r n) ((contrEquiv1 (DotDims.plain A K N) K rfl rfl).symm k) = ix2 k n := by
    funext a
    match a with
    | ⟨0, _⟩ => exact Fin.ext hk
    | ⟨1, _⟩ => rfl
  exact congrArg₂ (· * ·) (congrArg x el) (congrArg w er)

end Cert.LibHostRows

end
-- ==== Proof.LibNormRows.lean ====
/-
  Layer normalisation of the rows of a matrix, read as a function of rows at the ideal values, generic in the extents.

  For an [A, N] matrix h, a gain g and an offset b of length N, and two float words cN (the row length as a float) and
  ce (the stabiliser), the normalised matrix has entry (r, n)

      (h(r, n) - mu(r)) * rsqrt (var(r) + ce) * g(n) + b(n),
      mu(r) = (sum_k h(r, k)) / cN,    var(r) = (sum_k (h(r, k) - mu(r)) * (h(r, k) - mu(r))) / cN.

  Entry (r, n) depends on row r of h only, so the normalisation of a block of rows is the block of the normalisation of
  all rows: that is what lets a kernel that walks over row blocks be compared with a reference that treats the whole
  matrix at once.

  Two spellings are read to this one function.  The kernel's: lane sums that carry their neutral element, the sums cast
  to a column, divided by a splatted scalar, and the column repeated along the rows; gain and offset cast to one row and
  repeated down the rows.  The host's: sums with an initial value zero, the sums given a unit trailing axis, divided by
  a broadcast scalar constant, laid along the rows again; gain and offset broadcast in two steps.  Nothing beyond
  0 + x = x is used of the arithmetic, so nothing here needs the entries to be finite.

  Also here: relu, max(., 0), pointwise in both spellings, and the reading of a scalar constant broadcast to any shape.
-/
import proofs.«139584_j10677288698626_2_alg».proof.Proof.LibDense
import proofs.«139584_j10677288698626_2_alg».proof.Proof.LibLayout
import proofs.«139584_j10677288698626_2_alg».proof.Proof.LibReduceRead
import proofs.«139584_j10677288698626_2_alg».proof.Proof.LibHostRows
import Idealize.ShloMosaic.Lib.KernelVsHost
import Idealize.ShloMosaic.Lib.ValueIdx
import Idealize.ShloMosaic.Lib.Pipeline.Value
import Idealize.ShloMosaic.Lib.IdealHost
import Idealize.ShloMosaic.PureOps.Ideal.Laws

noncomputable section

open scoped BigOperators

namespace Cert.LibNormRows

open Idealize.ShloMosaic Idealize.ShloMosaic.ValueIdx

/-! ## The row function -/

/-- The mean of row r: the sum of the row divided by the float cN. -/
def rowMean {A N : Nat} (cN : BitVec 32) (h : (⟨2, ![A, N]⟩ : Shape).Idx → EReal) (r : Fin A) : EReal :=
  Ideal.div (∑ k : Fin N, h (ix2 r k)) (Ideal.ofBits .f32 cN)

/-- The variance of row r: the sum of the squared deviations from the row's mean, divided by cN. -/
def rowVar {A N : Nat} (cN : BitVec 32) (h : (⟨2, ![A, N]⟩ : Shape).Idx → EReal) (r : Fin A) : EReal :=
  Ideal.div (∑ k : Fin N, (h (ix2 r k) - rowMean cN h r) * (h (ix2 r k) - rowMean cN h r)) (Ideal.ofBits .f32 cN)

/-- The normalised matrix. -/
def normRows {A N : Nat} (cN ce : BitVec 32) (h : (⟨2, ![A, N]⟩ : Shape).Idx → EReal)
    (g b : (⟨1, ![N]⟩ : Shape).Idx → EReal) : (⟨2, ![A, N]⟩ : Shape).Idx → EReal :=
  fun j => (h (ix2 (j 0 : Fin A) (j 1 : Fin N)) - rowMean cN h (j 0 : Fin A))
      * Ideal.rsqrt (rowVar cN h (j 0 : Fin A) + Ideal.ofBits .f32 ce) * g (ix1 (j 1 : Fin N)) + b (ix1 (j 1 : Fin N))

/-- Rows that agree have the same mean. -/
theorem rowMean_congr {A A' N : Nat} (cN : BitVec 32) (h : (⟨2, ![A, N]⟩ : Shape).Idx → EReal)
    (h' : (⟨2, ![A', N]⟩ : Shape).Idx → EReal) (p : Fin A) (r : Fin A') (e : ∀ k : Fin N, h (ix2 p k) = h' (ix2 r k)) :
    rowMean cN h p = rowMean cN h' r := by
  unfold rowMean
  rw [Finset.sum_congr rfl fun k _ => e k]

/-- Rows that agree have the same variance. -/
theorem rowVar_congr {A A' N : Nat} (cN : BitVec 32) (h : (⟨2, ![A, N]⟩ : Shape).Idx → EReal)
    (h' : (⟨2, ![A', N]⟩ : Shape).Idx → EReal) (p : Fin A) (r : Fin A') (e : ∀ k : Fin N, h (ix2 p k) = h' (ix2 r k)) :
    rowVar cN h p = rowVar cN h' r := by
  unfold rowVar
  rw [rowMean_congr cN h h' p r e, Finset.sum_congr rfl fun k _ => by rw [e k]]

/-- Entry (p, q) of the normalised matrix depends on row p only. -/
theorem normRows_row {A A' N : Nat} (cN ce : BitVec 32) (h : (⟨2, ![A, N]⟩ : Shape).Idx → EReal)
    (h' : (⟨2, ![A', N]⟩ : Shape).Idx → EReal) (g b : (⟨1, ![N]⟩ : Shape).Idx → EReal) (p : Fin A) (r : Fin A') (q : Fin N)
    (e : ∀ k : Fin N, h (ix2 p k) = h' (ix2 r k)) :
    normRows cN ce h g b (ix2 p q) = normRows cN ce h' g b (ix2 r q) := by
  show (h (ix2 p q) - rowMean cN h p) * Ideal.rsqrt (rowVar cN h p + Ideal.ofBits .f32 ce) * g (ix1 q) + b (ix1 q)
    = (h' (ix2 r q) - rowMean cN h' r) * Ideal.rsqrt (rowVar cN h' r + Ideal.ofBits .f32 ce) * g (ix1 q) + b (ix1 q)
  rw [rowMean_congr cN h h' p r e, rowVar_congr cN h h' p r e, e q]

/-! ## The kernel's spelling -/

/-- The kernel's column of row quotients: the lane sums cast to a column and divided by the splatted cN. -/
abbrev quotColK {A N : Nat} (cN : BitVec 32) (x : FVec Ideal ⟨2, ![A, N]⟩ .f32)
    (hr : (⟨2, ![A, N]⟩ : Shape).Reduces [1] ⟨1, ![A]⟩) (hφ : FKind.Formats .f32)
    (hacc : (0x00000000#32 : BitVec 32) = FKind.add.neutral .f32 hφ)
    (hc : (⟨1, ![A]⟩ : Shape).ShapeCasts ⟨2, ![A, 1]⟩) : FVec Ideal ⟨2, ![A, 1]⟩ .f32 :=
  divf (shapeCast ⟨2, ![A, 1]⟩ (multiReduction .add [1] ⟨1, ![A]⟩ x 0x00000000#32 hr hφ hacc) hc)
    (broadcast ⟨2, ![A, 1]⟩ (Scalar.ofBits (F := Ideal) .f32 cN))

/-- Its entry of row p is the row's sum divided by cN. -/
theorem quotColK_apply {A N : Nat} (cN : BitVec 32) (x : FVec Ideal ⟨2, ![A, N]⟩ .f32)
    (hr : (⟨2, ![A, N]⟩ : Shape).Reduces [1] ⟨1, ![A]⟩) (hφ : FKind.Formats .f32)
    (hacc : (0x00000000#32 : BitVec 32) = FKind.add.neutral .f32 hφ)
    (hc : (⟨1, ![A]⟩ : Shape).ShapeCasts ⟨2, ![A, 1]⟩) (p : Fin A) (u : Fin 1) :
    quotColK cN x hr hφ hacc hc (ix2 p u) = Ideal.div (∑ k : Fin N, x (ix2 p k)) (Ideal.ofBits .f32 cN) := by
  show Ideal.div (shapeCast ⟨2, ![A, 1]⟩ (multiReduction .add [1] ⟨1, ![A]⟩ x 0x00000000#32 hr hφ hacc) hc (ix2 p u))
      (Ideal.ofBits .f32 cN) = _
  rw [LibLayout.shapeCast_a_a1_apply, LibReduceRead.rowSum_apply]

/-- The kernel's layer normalisation is the row function. -/
theorem normRows_kernel {A N : Nat} (cN ce : BitVec 32) (h : FVec Ideal ⟨2, ![A, N]⟩ .f32) (g b : FVec Ideal ⟨1, ![N]⟩ .f32)
    (hr : (⟨2, ![A, N]⟩ : Shape).Reduces [1] ⟨1, ![A]⟩) (hφ : FKind.Formats .f32)
    (hacc : (0x00000000#32 : BitVec 32) = FKind.add.neutral .f32 hφ)
    (hc : (⟨1, ![A]⟩ : Shape).ShapeCasts ⟨2, ![A, 1]⟩) (hb : (⟨2, ![A, 1]⟩ : Shape).Broadcasts ⟨2, ![A, N]⟩)
    (h1 : (⟨1, ![N]⟩ : Shape).ShapeCasts ⟨2, ![1, N]⟩) (hb1 : (⟨2, ![1, N]⟩ : Shape).Broadcasts ⟨2, ![A, N]⟩) :
    addf (mulf (mulf
        (subf h (broadcastTo ⟨2, ![A, N]⟩ (quotColK cN h hr hφ hacc hc) hb))
        (broadcastTo ⟨2, ![A, N]⟩ (rsqrt (addf
          (quotColK cN (mulf (subf h (broadcastTo ⟨2, ![A, N]⟩ (quotColK cN h hr hφ hacc hc) hb))
            (subf h (broadcastTo ⟨2, ![A, N]⟩ (quotColK cN h hr hφ hacc hc) hb))) hr hφ hacc hc)
          (broadcast ⟨2, ![A, 1]⟩ (Scalar.ofBits (F := Ideal) .f32 ce)))) hb))
        (broadcastTo ⟨2, ![A, N]⟩ (shapeCast ⟨2, ![1, N]⟩ g h1) hb1))
      (broadcastTo ⟨2, ![A, N]⟩ (shapeCast ⟨2, ![1, N]⟩ b h1) hb1)
    = normRows cN ce h g b := by
  funext j
  obtain ⟨p, q, rfl⟩ : ∃ (p : Fin A) (q : Fin N), j = ix2 p q := ⟨j 0, j 1, eq_ix2 j⟩
  have hd : ∀ q' : Fin N, subf h (broadcastTo ⟨2, ![A, N]⟩ (quotColK cN h hr hφ hacc hc) hb) (ix2 p q')
      = h (ix2 p q') - rowMean cN h p := fun q' => by
    rw [subf_apply, LibLayout.broadcastTo_a1_ab_apply, quotColK_apply]; rfl
  have hv : quotColK cN (mulf (subf h (broadcastTo ⟨2, ![A, N]⟩ (quotColK cN h hr hφ hacc hc) hb))
      (subf h (broadcastTo ⟨2, ![A, N]⟩ (quotColK cN h hr hφ hacc hc) hb))) hr hφ hacc hc (ix2 p (0 : Fin 1))
      = rowVar cN h p := by
    rw [quotColK_apply]
    unfold rowVar
    rw [Finset.sum_congr rfl fun k _ => by rw [mulf_apply, hd k]]
  rw [addf_apply, mulf_apply, mulf_apply, hd q, LibDense.bias_rows_kernel, LibDense.bias_rows_kernel,
    LibLayout.broadcastTo_a1_ab_apply]
  show (h (ix2 p q) - rowMean cN h p) * Ideal.rsqrt (quotColK cN (mulf (subf h (broadcastTo ⟨2, ![A, N]⟩ (quotColK cN h hr hφ hacc hc) hb))
      (subf h (broadcastTo ⟨2, ![A, N]⟩ (quotColK cN h hr hφ hacc hc) hb))) hr hφ hacc hc (ix2 p (0 : Fin 1)) + Ideal.ofBits .f32 ce)
      * g (ix1 q) + b (ix1 q) = _
  rw [hv]
  rfl

/-! ## The host's spelling -/

/-- A scalar constant broadcast to any shape reads the constant's value everywhere. -/
theorem splatH_apply {s : Shape} (c : BitVec 32) (hs : (⟨0, ![]⟩ : Shape).BroadcastsInDim s (![] : Fin 0 → Fin s.rank)) (i : s.Idx) :
    broadcastInDim s ![] hs (constant (F := Ideal) ⟨0, ![]⟩ .f32 c) i = Ideal.ofBits .f32 c :=
  broadcastInDim_apply ![] hs (constant (F := Ideal) ⟨0, ![]⟩ .f32 c) i (fun a => a.elim0) (fun a => a.elim0)

/-- The host's column of row quotients: the sums from an initial zero, given a unit trailing axis, divided by the
    broadcast constant cN. -/
abbrev quotColH {A N : Nat} (cN : BitVec 32) (x : FVec Ideal ⟨2, ![A, N]⟩ .f32)
    (hr' : (⟨2, ![A, N]⟩ : Shape).ReducesTo [1] ⟨1, ![A]⟩) (hu : 0 < (⟨0, ![]⟩ : Shape).numel)
    (hd : (⟨1, ![A]⟩ : Shape).BroadcastsInDim ⟨2, ![A, 1]⟩ ![0])
    (hs : (⟨0, ![]⟩ : Shape).BroadcastsInDim ⟨2, ![A, 1]⟩ ![]) : FVec Ideal ⟨2, ![A, 1]⟩ .f32 :=
  Host.divf (broadcastInDim ⟨2, ![A, 1]⟩ ![0] hd (Host.reduceAdd x (constant (F := Ideal) ⟨0, ![]⟩ .f32 0x00000000#32) hr' hu))
    (broadcastInDim ⟨2, ![A, 1]⟩ ![] hs (constant (F := Ideal) ⟨0, ![]⟩ .f32 cN))

/-- Its entry of row p is the row's sum divided by cN. -/
theorem quotColH_apply {A N : Nat} (cN : BitVec 32) (x : FVec Ideal ⟨2, ![A, N]⟩ .f32)
    (hr' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hd : (⟨1, ![A]⟩ : Shape).BroadcastsInDim ⟨2, ![A, 1]⟩ ![0])
    (hs : (⟨0, ![]⟩ : Shape).BroadcastsInDim ⟨2, ![A, 1]⟩ ![]) (p : Fin A) (u : Fin 1) :
    quotColH cN x hr' hu hd hs (ix2 p u) = Ideal.div (∑ k : Fin N, x (ix2 p k)) (Ideal.ofBits .f32 cN) := by
  show Ideal.div (broadcastInDim ⟨2, ![A, 1]⟩ ![0] hd (Host.reduceAdd x (constant (F := Ideal) ⟨0, ![]⟩ .f32 0x00000000#32) hr' hu) (ix2 p u))
      (broadcastInDim ⟨2, ![A, 1]⟩ ![] hs (constant (F := Ideal) ⟨0, ![]⟩ .f32 cN) (ix2 p u)) = _
  rw [LibHostRows.addLast2_apply, LibHostRows.hostSumLast2_apply _ _ hr' hr hu p, splatH_apply]
  show Ideal.div (Ideal.ofBits .f32 0x00000000#32 + _) _ = _
  rw [Ideal.ofBits_zero_f32, zero_add]

/-- The host's layer normalisation is the row function. -/
theorem normRows_host {A N : Nat} (cN ce : BitVec 32) (h : FVec Ideal ⟨2, ![A, N]⟩ .f32) (g b : FVec Ideal ⟨1, ![N]⟩ .f32)
    (hr' : (⟨2, ![A, N]⟩ : Shape).ReducesTo [1] ⟨1, ![A]⟩) (hr : (⟨2, ![A, N]⟩ : Shape).Reduces [1] ⟨1, ![A]⟩)
    (hu : 0 < (⟨0, ![]⟩ : Shape).numel)
    (hd : (⟨1, ![A]⟩ : Shape).BroadcastsInDim ⟨2, ![A, 1]⟩ ![0])
    (hs : (⟨0, ![]⟩ : Shape).BroadcastsInDim ⟨2, ![A, 1]⟩ ![])
    (hbc : (⟨2, ![A, 1]⟩ : Shape).BroadcastsInDim ⟨2, ![A, N]⟩ ![0, 1])
    (hd1 : (⟨1, ![N]⟩ : Shape).BroadcastsInDim ⟨2, ![1, N]⟩ ![1])
    (hbc1 : (⟨2, ![1, N]⟩ : Shape).BroadcastsInDim ⟨2, ![A, N]⟩ ![0, 1]) :
    addf (mulf (mulf
        (subf h (broadcastInDim ⟨2, ![A, N]⟩ ![0, 1] hbc (quotColH cN h hr' hu hd hs)))
        (broadcastInDim ⟨2, ![A, N]⟩ ![0, 1] hbc (Host.rsqrt (addf
          (quotColH cN (mulf (subf h (broadcastInDim ⟨2, ![A, N]⟩ ![0, 1] hbc (quotColH cN h hr' hu hd hs)))
            (subf h (broadcastInDim ⟨2, ![A, N]⟩ ![0, 1] hbc (quotColH cN h hr' hu hd hs)))) hr' hu hd hs)
          (broadcastInDim ⟨2, ![A, 1]⟩ ![] hs (constant (F := Ideal) ⟨0, ![]⟩ .f32 ce))))))
        (broadcastInDim ⟨2, ![A, N]⟩ ![0, 1] hbc1 (broadcastInDim ⟨2, ![1, N]⟩ ![1] hd1 g)))
      (broadcastInDim ⟨2, ![A, N]⟩ ![0, 1] hbc1 (broadcastInDim ⟨2, ![1, N]⟩ ![1] hd1 b))
    = normRows cN ce h g b := by
  funext j
  obtain ⟨p, q, rfl⟩ : ∃ (p : Fin A) (q : Fin N), j = ix2 p q := ⟨j 0, j 1, eq_ix2 j⟩
  have hdv : ∀ q' : Fin N, subf h (broadcastInDim ⟨2, ![A, N]⟩ ![0, 1] hbc (quotColH cN h hr' hu hd hs)) (ix2 p q')
      = h (ix2 p q') - rowMean cN h p := fun q' => by
    rw [subf_apply, LibHostRows.alongLast2_apply, quotColH_apply cN h hr' hr]; rfl
  have hv : quotColH cN (mulf (subf h (broadcastInDim ⟨2, ![A, N]⟩ ![0, 1] hbc (quotColH cN h hr' hu hd hs)))
      (subf h (broadcastInDim ⟨2, ![A, N]⟩ ![0, 1] hbc (quotColH cN h hr' hu hd hs)))) hr' hu hd hs (ix2 p (0 : Fin 1))
      = rowVar cN h p := by
    rw [quotColH_apply cN _ hr' hr]
    unfold rowVar
    rw [Finset.sum_congr rfl fun k _ => by rw [mulf_apply, hdv k]]
  rw [addf_apply, mulf_apply, mulf_apply, hdv q, LibDense.bias_rows_host_ix, LibDense.bias_rows_host_ix,
    LibHostRows.alongLast2_apply]
  show (h (ix2 p q) - rowMean cN h p) * Ideal.rsqrt (quotColH cN (mulf (subf h (broadcastInDim ⟨2, ![A, N]⟩ ![0, 1] hbc (quotColH cN h hr' hu hd hs)))
      (subf h (broadcastInDim ⟨2, ![A, N]⟩ ![0, 1] hbc (quotColH cN h hr' hu hd hs)))) hr' hu hd hs (ix2 p (0 : Fin 1))
      + broadcastInDim ⟨2, ![A, 1]⟩ ![] hs (constant (F := Ideal) ⟨0, ![]⟩ .f32 ce) (ix2 p (0 : Fin 1)))
      * g (ix1 q) + b (ix1 q) = _
  rw [hv, splatH_apply]
  rfl

/-! ## relu -/

/-- max(., 0) pointwise, the zero as the f32 zero word's value. -/
def relu {s : Shape} (y : s.Idx → EReal) : s.Idx → EReal := fun j => max (y j) (Ideal.ofBits .f32 0x00000000#32)

/-- The kernel's spelling: a maximum with a splatted zero. -/
theorem relu_kernel {s : Shape} (y : FVec Ideal s .f32) :
    maximumf y (broadcast s (Scalar.ofBits (F := Ideal) .f32 0x00000000#32)) = relu y := rfl

/-- The host's spelling: a maximum with a broadcast zero constant. -/
theorem relu_host {s : Shape} (y : FVec Ideal s .f32) (hs : (⟨0, ![]⟩ : Shape).BroadcastsInDim s (![] : Fin 0 → Fin s.rank)) :
    maximumf y (broadcastInDim s ![] hs (constant (F := Ideal) ⟨0, ![]⟩ .f32 0x00000000#32)) = relu y := by
  funext j
  rw [maximumf_apply, splatH_apply]
  rfl

end Cert.LibNormRows

end
-- ==== Proof.Rows.lean ====
/-
  The three row functions of the hypergraph layer, at the ideal values.

  * mlpRows: a two-layer perceptron applied to every row of an [A, K] matrix,
        x  |->  relu (layernorm (x W1 + b1)) W2 + b2,
    with a hidden width and an output width of 256; the node-to-hyperedge messages use it at K = 256, the
    hyperedge-to-node messages at K = 320 under one more relu.
  * finRows: the closing step, x + layernorm (o), row by row.

  Every entry of a result depends on ONE row of the input only.  So the function applied to a block of rows is the
  block of the function applied to all rows, which is what joins a kernel that walks over blocks of 2000 rows to a
  reference that treats all rows at once.

  The dense layer in the kernel's spelling is restated here for a matrix product whose dimension numbers are given by a
  record equal to the plain ones, and whose weights arrive already narrowed to bf16 (the identity at the ideal values).
-/
import proofs.«139584_j10677288698626_2_alg».proof.Proof.LibDense
import proofs.«139584_j10677288698626_2_alg».proof.Proof.LibNormRows

noncomputable section

open scoped BigOperators

namespace Cert.Rows

open Idealize.ShloMosaic Idealize.ShloMosaic.ValueIdx

/-- The two-layer perceptron on rows: dense, layer normalisation (row length 256.0, stabiliser f32(1e-5)), relu, dense. -/
def mlpRows (A K : Nat) (x : (⟨2, ![A, K]⟩ : Shape).Idx → EReal) (w1 : (⟨2, ![K, 256]⟩ : Shape).Idx → EReal)
    (b1 g β : (⟨1, ![256]⟩ : Shape).Idx → EReal) (w2 : (⟨2, ![256, 256]⟩ : Shape).Idx → EReal)
    (b2 : (⟨1, ![256]⟩ : Shape).Idx → EReal) : (⟨2, ![A, 256]⟩ : Shape).Idx → EReal :=
  LibDense.dense A 256 256
    (LibNormRows.relu (LibNormRows.normRows 0x43800000#32 0x3727C5AC#32 (LibDense.dense A K 256 x w1 b1) g β)) w2 b2

/-- Entry (p, q) of the perceptron's result depends on row p of its input only. -/
theorem mlpRows_row {A A' K : Nat} (x : (⟨2, ![A, K]⟩ : Shape).Idx → EReal) (x' : (⟨2, ![A', K]⟩ : Shape).Idx → EReal)
    (w1 : (⟨2, ![K, 256]⟩ : Shape).Idx → EReal) (b1 g β : (⟨1, ![256]⟩ : Shape).Idx → EReal)
    (w2 : (⟨2, ![256, 256]⟩ : Shape).Idx → EReal) (b2 : (⟨1, ![256]⟩ : Shape).Idx → EReal)
    (p : Fin A) (r : Fin A') (q : Fin 256) (e : ∀ k : Fin K, x (ix2 p k) = x' (ix2 r k)) :
    mlpRows A K x w1 b1 g β w2 b2 (ix2 p q) = mlpRows A' K x' w1 b1 g β w2 b2 (ix2 r q) := by
  unfold mlpRows
  refine LibDense.dense_row _ _ w2 b2 p r q fun k => ?_
  show max _ _ = max _ _
  refine congrArg (max · _) ?_
  exact LibNormRows.normRows_row _ _ _ _ g β p r k fun k' => LibDense.dense_row x x' w1 b1 p r k' e

/-- The closing step on rows: the input plus the layer normalisation of the aggregated messages. -/
def finRows (A : Nat) (o x : (⟨2, ![A, 256]⟩ : Shape).Idx → EReal) (g b : (⟨1, ![256]⟩ : Shape).Idx → EReal) :
    (⟨2, ![A, 256]⟩ : Shape).Idx → EReal :=
  fun j => x j + LibNormRows.normRows 0x43800000#32 0x3727C5AC#32 o g b j

/-- Entry (p, q) of the closing step depends on row p of the messages and on entry (p, q) of the input. -/
theorem finRows_row {A A' : Nat} (o x : (⟨2, ![A, 256]⟩ : Shape).Idx → EReal) (o' x' : (⟨2, ![A', 256]⟩ : Shape).Idx → EReal)
    (g b : (⟨1, ![256]⟩ : Shape).Idx → EReal) (p : Fin A) (r : Fin A') (q : Fin 256)
    (e : ∀ k : Fin 256, o (ix2 p k) = o' (ix2 r k)) (ex : x (ix2 p q) = x' (ix2 r q)) :
    finRows A o x g b (ix2 p q) = finRows A' o' x' g b (ix2 r q) := by
  unfold finRows
  rw [ex, LibNormRows.normRows_row _ _ o o' g b p r q e]

/-- The kernel's dense layer for dimension numbers given by a record equal to the plain ones, the weights already
    narrowed: the same row function. -/
theorem dense_kernel_d {A K N : Nat} (d : DotDims ⟨2, ![A, K]⟩ ⟨2, ![K, N]⟩ ⟨2, ![A, N]⟩) (hd : d = DotDims.plain A K N)
    (x : FVec Ideal ⟨2, ![A, K]⟩ .f32) (w : FVec Ideal ⟨2, ![K, N]⟩ .bf16) (b : FVec Ideal ⟨1, ![N]⟩ .f32)
    (hlt : FTy.bits .bf16 < FTy.bits .f32)
    (h1 : (⟨1, ![N]⟩ : Shape).ShapeCasts ⟨2, ![1, N]⟩) (hb : (⟨2, ![1, N]⟩ : Shape).Broadcasts ⟨2, ![A, N]⟩) :
    addf (matmul d none (truncf .bf16 x hlt) w (constant ⟨2, ![A, N]⟩ .f32 0x00000000#32))
      (broadcastTo ⟨2, ![A, N]⟩ (shapeCast ⟨2, ![1, N]⟩ b h1) hb) = LibDense.dense A K N x w b := by
  subst hd
  exact LibDense.dense_kernel x w b hlt h1 hb

/-- The host's dense layer for dimension numbers given by a record equal to the plain ones. -/
theorem dense_host_d {A K N : Nat} (d : DotDims ⟨2, ![A, K]⟩ ⟨2, ![K, N]⟩ ⟨2, ![A, N]⟩) (hd : d = DotDims.plain A K N)
    (x : FVec Ideal ⟨2, ![A, K]⟩ .f32) (w : FVec Ideal ⟨2, ![K, N]⟩ .f32) (b : FVec Ideal ⟨1, ![N]⟩ .f32)
    (hd1 : (⟨1, ![N]⟩ : Shape).BroadcastsInDim ⟨2, ![1, N]⟩ ![1])
    (hbc : (⟨2, ![1, N]⟩ : Shape).BroadcastsInDim ⟨2, ![A, N]⟩ ![0, 1]) :
    addf (Host.dotGeneral d none x w)
      (broadcastInDim ⟨2, ![A, N]⟩ ![0, 1] hbc (broadcastInDim ⟨2, ![1, N]⟩ ![1] hd1 b)) = LibDense.dense A K N x w b := by
  subst hd
  exact LibDense.dense_host x w b hd1 hbc

end Cert.Rows

end
-- ==== Proof.KernelBodies.lean ====
/-
  What each of the three kernel bodies leaves in its output block, as a row function of its input blocks.

  Each body loads its blocks whole, computes, and stores one whole block, so the output block is the stored value.
  That value is a dense layer, a layer normalisation of the rows, a relu and a dense layer (regions 0 and 1; region 1
  under one more relu), or the second input plus the layer normalisation of the first (region 2): the row functions of
  Rows.lean at 2000 rows.
-/
import proofs.«139584_j10677288698626_2_alg».proof.Proof.Gen.KernelIdeal.Frame
import proofs.«139584_j10677288698626_2_alg».proof.Proof.Rows

noncomputable section

namespace Cert.KernelBodies

open Idealize.ShloMosaic Idealize.ShloMosaic.ValueIdx Cert.KernelIdeal Cert.KernelIdeal.Gen Cert.Rows

/-- The zero offsets of a rank-2 load or store, however they are written. -/
theorem hz2 : (![0, 0] : Fin 2 → Nat) = fun _ => 0 := funext fun a => by fin_cases a <;> rfl
/-- The zero offset of a rank-1 load. -/
theorem hz1 : (![0] : Fin 1 → Nat) = fun _ => 0 := funext fun a => by fin_cases a; rfl

/-- Region 0's output block: the node-to-hyperedge perceptron on the block's 2000 rows. -/
theorem body0 (x0 : Vec Ideal S2000x256 .f32) (x1 : Vec Ideal S256x256 .bf16) (x2 x3 x4 : Vec Ideal S256 .f32)
    (x5 : Vec Ideal S256x256 .bf16) (x6 : Vec Ideal S256 .f32) :
    out0_7 (F := Ideal) x0 x1 x2 x3 x4 x5 x6 = mlpRows 2000 256 x0 x1 x2 x3 x4 x5 x6 := by
  unfold out0_7
  rw [View.canon_unit_zero hz2]
  simp only [View.ld_unit_zero (S := S2000x256) hz2, View.ld_unit_zero (S := S256x256) hz2, View.ld_unit_zero (S := S256) hz1]
  unfold k0_pay1 k0_pay2
  dsimp only
  rw [shapeCast_self, shapeCast_self, shapeCast_self]
  rw [dense_kernel_d dot_S2000x256_S256x256_S2000x256_1_0_0_1_n_n rfl x0 x1 x2]
  rw [LibNormRows.normRows_kernel 0x43800000#32 0x3727C5AC#32 (LibDense.dense 2000 256 256 x0 x1 x2) x3 x4
    reduces_S2000x256_S2000 (.inl rfl) rfl shapeCasts_S2000_S2000x1 broadcasts_S2000x1_S2000x256
    shapeCasts_S256_S1x256 broadcasts_S1x256_S2000x256]
  rw [LibNormRows.relu_kernel (LibNormRows.normRows 0x43800000#32 0x3727C5AC#32 (LibDense.dense 2000 256 256 x0 x1 x2) x3 x4)]
  rw [dense_kernel_d dot_S2000x256_S256x256_S2000x256_1_0_0_1_n_n rfl
    (LibNormRows.relu (LibNormRows.normRows 0x43800000#32 0x3727C5AC#32 (LibDense.dense 2000 256 256 x0 x1 x2) x3 x4)) x5 x6]
  rfl

/-- Region 1's output block: relu of the hyperedge-to-node perceptron on the block's 2000 rows of width 320. -/
theorem body1 (x0 : Vec Ideal S2000x320 .f32) (x1 : Vec Ideal S320x256 .bf16) (x2 x3 x4 : Vec Ideal S256 .f32)
    (x5 : Vec Ideal S256x256 .bf16) (x6 : Vec Ideal S256 .f32) :
    out1_7 (F := Ideal) x0 x1 x2 x3 x4 x5 x6 = LibNormRows.relu (mlpRows 2000 320 x0 x1 x2 x3 x4 x5 x6) := by
  unfold out1_7
  rw [View.canon_unit_zero hz2]
  simp only [View.ld_unit_zero (S := S2000x320) hz2, View.ld_unit_zero (S := S320x256) hz2,
    View.ld_unit_zero (S := S256x256) hz2, View.ld_unit_zero (S := S256) hz1]
  unfold k1_pay1 k1_pay2
  dsimp only
  rw [shapeCast_self, shapeCast_self, shapeCast_self]
  rw [dense_kernel_d dot_S2000x320_S320x256_S2000x256_1_0_0_1_n_n rfl x0 x1 x2]
  rw [LibNormRows.normRows_kernel 0x43800000#32 0x3727C5AC#32 (LibDense.dense 2000 320 256 x0 x1 x2) x3 x4
    reduces_S2000x256_S2000 (.inl rfl) rfl shapeCasts_S2000_S2000x1 broadcasts_S2000x1_S2000x256
    shapeCasts_S256_S1x256 broadcasts_S1x256_S2000x256]
  rw [LibNormRows.relu_kernel (LibNormRows.normRows 0x43800000#32 0x3727C5AC#32 (LibDense.dense 2000 320 256 x0 x1 x2) x3 x4)]
  rw [dense_kernel_d dot_S2000x256_S256x256_S2000x256_1_0_0_1_n_n rfl
    (LibNormRows.relu (LibNormRows.normRows 0x43800000#32 0x3727C5AC#32 (LibDense.dense 2000 320 256 x0 x1 x2) x3 x4)) x5 x6]
  rfl

/-- Region 2's output block: the node rows plus the layer normalisation of the aggregated rows. -/
theorem body2 (x0 x1 : Vec Ideal S2000x256 .f32) (x2 x3 : Vec Ideal S256 .f32) :
    out2_4 (F := Ideal) x0 x1 x2 x3 = finRows 2000 x0 x1 x2 x3 := by
  unfold out2_4
  rw [View.canon_unit_zero hz2]
  simp only [View.ld_unit_zero (S := S2000x256) hz2, View.ld_unit_zero (S := S256) hz1]
  unfold k2_pay1
  dsimp only
  rw [shapeCast_self]
  rw [LibNormRows.normRows_kernel 0x43800000#32 0x3727C5AC#32 x0 x2 x3
    reduces_S2000x256_S2000 (.inl rfl) rfl shapeCasts_S2000_S2000x1 broadcasts_S2000x1_S2000x256
    shapeCasts_S256_S1x256 broadcasts_S1x256_S2000x256]
  rfl

end Cert.KernelBodies

end
-- ==== Proof.KernelValue.lean ====
/-
  The idealized kernel's three regions, each read from blocks to the whole array.

  Region 0 walks over the 200000 gathered node rows in 100 blocks of 2000 and writes, block by block, the
  node-to-hyperedge perceptron of the block's rows; region 1 does the same for the hyperedge-to-node perceptron (under
  one more relu) over the 200000 joined rows of width 320; region 2 walks over the 50000 node rows in 25 blocks of 2000
  and writes the node rows plus the layer normalisation of the aggregated rows.  Every weight, bias, gain and offset
  window is the whole array at every point.  Because an entry of each row function depends on one row of its input only
  (Rows.lean), block t of the result array is block t of the row function applied to ALL rows, and the 2000-row blocks
  tile the rows, so each result array ends holding the row function of the region's whole input arrays.
-/
import proofs.«139584_j10677288698626_2_alg».proof.Proof.Gen.KernelIdeal.Frame
import proofs.«139584_j10677288698626_2_alg».proof.Proof.KernelBodies
import proofs.«139584_j10677288698626_2_alg».proof.Proof.Rows
import Idealize.ShloMosaic.Lib.Pipeline.Value

set_option maxRecDepth 16384

noncomputable section

namespace Cert.KernelValue

open Idealize.ShloMosaic Idealize.ShloMosaic.TcCoe Idealize.ShloMosaic.ValueIdx Idealize.SL.Sem
open Idealize.ShloMosaic.Pipeline (Dat Cfg Window)
open Cert.KernelIdeal Cert.KernelIdeal.Gen Cert.Rows

/-! ## Blocks of row functions -/

/-- A block's entry of the perceptron is the whole matrix's entry, when the block's row is the matrix's row. -/
theorem mlpRows_block {A A' K : Nat} (xb : (⟨2, ![A, K]⟩ : Shape).Idx → EReal) (X : (⟨2, ![A', K]⟩ : Shape).Idx → EReal)
    (w1 : (⟨2, ![K, 256]⟩ : Shape).Idx → EReal) (b1 g β : (⟨1, ![256]⟩ : Shape).Idx → EReal)
    (w2 : (⟨2, ![256, 256]⟩ : Shape).Idx → EReal) (b2 : (⟨1, ![256]⟩ : Shape).Idx → EReal)
    (y : (⟨2, ![A, 256]⟩ : Shape).Idx) (i : (⟨2, ![A', 256]⟩ : Shape).Idx) (hcol : (i 1).val = (y 1).val)
    (hrow : ∀ k : Fin K, xb (ix2 (y 0 : Fin A) k) = X (ix2 (i 0 : Fin A') k)) :
    mlpRows A K xb w1 b1 g β w2 b2 y = mlpRows A' K X w1 b1 g β w2 b2 i := by
  obtain ⟨p, q, rfl⟩ : ∃ (p : Fin A) (q : Fin 256), y = ix2 p q := ⟨y 0, y 1, eq_ix2 y⟩
  obtain ⟨r, q', rfl⟩ : ∃ (r : Fin A') (q' : Fin 256), i = ix2 r q' := ⟨i 0, i 1, eq_ix2 i⟩
  have hq : q' = q := Fin.ext hcol
  subst hq
  exact mlpRows_row xb X w1 b1 g β w2 b2 p r q' hrow

/-- The same for the closing step. -/
theorem finRows_block {A A' : Nat} (ob xb : (⟨2, ![A, 256]⟩ : Shape).Idx → EReal) (O X : (⟨2, ![A', 256]⟩ : Shape).Idx → EReal)
    (g b : (⟨1, ![256]⟩ : Shape).Idx → EReal)
    (y : (⟨2, ![A, 256]⟩ : Shape).Idx) (i : (⟨2, ![A', 256]⟩ : Shape).Idx) (hcol : (i 1).val = (y 1).val)
    (hrow : ∀ k : Fin 256, ob (ix2 (y 0 : Fin A) k) = O (ix2 (i 0 : Fin A') k))
    (hx : ∀ k : Fin 256, xb (ix2 (y 0 : Fin A) k) = X (ix2 (i 0 : Fin A') k)) :
    finRows A ob xb g b y = finRows A' O X g b i := by
  obtain ⟨p, q, rfl⟩ : ∃ (p : Fin A) (q : Fin 256), y = ix2 p q := ⟨y 0, y 1, eq_ix2 y⟩
  obtain ⟨r, q', rfl⟩ : ∃ (r : Fin A') (q' : Fin 256), i = ix2 r q' := ⟨i 0, i 1, eq_ix2 i⟩
  have hq : q' = q := Fin.ext hcol
  subst hq
  exact finRows_row ob xb O X g b p r q' hrow (hx q')

section Regions

variable (V : (c : Dev nD) → (b : Ref sig .tc) → Buf (Elt Ideal) ((c : Thread nD τ).loc b))

/-! ## Region 0 -/

/-- The printed index maps of region 0, decided over its 100 points: the row window and the result window sit at block
    (t, 0), every other window at block 0. -/
theorem idx0 : ∀ t : Fin cfg0.N, win0_0.index t (0 : Fin 2) = t.val ∧ win0_0.index t (1 : Fin 2) = 0
    ∧ win0_7.index t (0 : Fin 2) = t.val ∧ win0_7.index t (1 : Fin 2) = 0
    ∧ win0_1.index t (0 : Fin 2) = 0 ∧ win0_1.index t (1 : Fin 2) = 0
    ∧ win0_5.index t (0 : Fin 2) = 0 ∧ win0_5.index t (1 : Fin 2) = 0
    ∧ win0_2.index t (0 : Fin 1) = 0 ∧ win0_3.index t (0 : Fin 1) = 0 ∧ win0_4.index t (0 : Fin 1) = 0
    ∧ win0_6.index t (0 : Fin 1) = 0 :=
  (by decide +kernel : ∀ t : Fin grid0.N, _)

/-- The first layer's weights: the window's block is the whole array at every point. -/
theorem whole0_1 (c : Dev nD) (t : Fin cfg0.N) : iblk0 V c 1 t = V c main_v7 := by
  have hI := idx0 t
  funext j
  show V c main_v7 (((cfg0.win 1).blk t).view.emb j) = V c main_v7 j
  refine congrArg _ (funext fun a => Fin.ext ?_)
  match a with
  | ⟨0, _⟩ => show win0_1.index t (0 : Fin 2) * 256 + 1 * (j 0).val = (j 0).val; omega
  | ⟨1, _⟩ => show win0_1.index t (1 : Fin 2) * 256 + 1 * (j 1).val = (j 1).val; omega

/-- The first layer's bias: the window's block is the whole array at every point. -/
theorem whole0_2 (c : Dev nD) (t : Fin cfg0.N) : iblk0 V c 2 t = V c main_arg6 := by
  have hI := idx0 t
  funext j
  show V c main_arg6 (((cfg0.win 2).blk t).view.emb j) = V c main_arg6 j
  refine congrArg _ (funext fun a => Fin.ext ?_)
  match a with
  | ⟨0, _⟩ => show win0_2.index t (0 : Fin 1) * 256 + 1 * (j 0).val = (j 0).val; omega

/-- The normalisation's gain: the window's block is the whole array at every point. -/
theorem whole0_3 (c : Dev nD) (t : Fin cfg0.N) : iblk0 V c 3 t = V c main_arg7 := by
  have hI := idx0 t
  funext j
  show V c main_arg7 (((cfg0.win 3).blk t).view.emb j) = V c main_arg7 j
  refine congrArg _ (funext fun a => Fin.ext ?_)
  match a with
  | ⟨0, _⟩ => show win0_3.index t (0 : Fin 1) * 256 + 1 * (j 0).val = (j 0).val; omega

/-- The normalisation's offset: the window's block is the whole array at every point. -/
theorem whole0_4 (c : Dev nD) (t : Fin cfg0.N) : iblk0 V c 4 t = V c main_arg8 := by
  have hI := idx0 t
  funext j
  show V c main_arg8 (((cfg0.win 4).blk t).view.emb j) = V c main_arg8 j
  refine congrArg _ (funext fun a => Fin.ext ?_)
  match a with
  | ⟨0, _⟩ => show win0_4.index t (0 : Fin 1) * 256 + 1 * (j 0).val = (j 0).val; omega

/-- The second layer's weights: the window's block is the whole array at every point. -/
theorem whole0_5 (c : Dev nD) (t : Fin cfg0.N) : iblk0 V c 5 t = V c main_v8 := by
  have hI := idx0 t
  funext j
  show V c main_v8 (((cfg0.win 5).blk t).view.emb j) = V c main_v8 j
  refine congrArg _ (funext fun a => Fin.ext ?_)
  match a with
  | ⟨0, _⟩ => show win0_5.index t (0 : Fin 2) * 256 + 1 * (j 0).val = (j 0).val; omega
  | ⟨1, _⟩ => show win0_5.index t (1 : Fin 2) * 256 + 1 * (j 1).val = (j 1).val; omega

/-- The second layer's bias: the window's block is the whole array at every point. -/
theorem whole0_6 (c : Dev nD) (t : Fin cfg0.N) : iblk0 V c 6 t = V c main_arg10 := by
  have hI := idx0 t
  funext j
  show V c main_arg10 (((cfg0.win 6).blk t).view.emb j) = V c main_arg10 j
  refine congrArg _ (funext fun a => Fin.ext ?_)
  match a with
  | ⟨0, _⟩ => show win0_6.index t (0 : Fin 1) * 256 + 1 * (j 0).val = (j 0).val; omega

/-- What region 0's result array ends holding: the perceptron of all gathered node rows. -/
def G0 (c : Dev nD) : S200000x256.Idx → EReal :=
  mlpRows 200000 256 (V c main_v6) (V c main_v7) (V c main_arg6) (V c main_arg7) (V c main_arg8) (V c main_v8) (V c main_arg10)

/-- What point t writes back is block t of that array: rows 2000 t to 2000 t + 1999. -/
theorem flushed0 (c : Dev nD) (t : Fin cfg0.N) :
    (dat0 V c).flushed 7 t = ((cfg0.win 7).blk t).view.read (Elt Ideal) (G0 V c) := by
  show (cfg0.win 7).cut (grid0.coords t) ((dat0 V c).after 7 t) = _
  rw [after0_7, KernelBodies.body0, whole0_1, whole0_2, whole0_3, whole0_4, whole0_5, whole0_6]
  have hI := idx0 t
  funext y
  show mlpRows 2000 256 (iblk0 V c 0 t) (V c main_v7) (V c main_arg6) (V c main_arg7) (V c main_arg8) (V c main_v8) (V c main_arg10) y
    = mlpRows 200000 256 (V c main_v6) (V c main_v7) (V c main_arg6) (V c main_arg7) (V c main_arg8) (V c main_v8) (V c main_arg10)
      (((cfg0.win 7).blk t).view.emb y)
  refine mlpRows_block _ _ _ _ _ _ _ _ y _ ?_ fun k => ?_
  · show win0_7.index t (1 : Fin 2) * 256 + 1 * (y 1).val = (y 1).val
    omega
  · show V c main_v6 (((cfg0.win 0).blk t).view.emb (ix2 (y 0 : Fin 2000) k)) = V c main_v6 (ix2 ((((cfg0.win 7).blk t).view.emb y) 0 : Fin 200000) k)
    refine congrArg _ (funext fun a => Fin.ext ?_)
    match a with
    | ⟨0, _⟩ => show win0_0.index t (0 : Fin 2) * 2000 + 1 * (y 0).val = win0_7.index t (0 : Fin 2) * 2000 + 1 * (y 0).val; omega
    | ⟨1, _⟩ => show win0_0.index t (1 : Fin 2) * 256 + 1 * k.val = k.val; omega

/-- An index of the result array is in point t's block iff each coordinate is in the block's range on its axis. -/
theorem mem_blk0 (t : Fin cfg0.N) (i : S200000x256.Idx) :
    i ∈ ((cfg0.win 7).blk t).view.set ↔ ∀ a : Fin 2, win0_7.index t a * S2000x256.size a ≤ (i a).val
      ∧ (i a).val < win0_7.index t a * S2000x256.size a + S2000x256.size a := by
  show i ∈ ((View.whole main_v9).slice (win0_7.rect t)).set ↔ _
  rw [View.set_slice_whole, Rect.mem_set_unit]
  exact Iff.rfl

/-- Every row is in some point's block: row r is in block r / 2000. -/
theorem cover0 (i : S200000x256.Idx) :
    ∃ t : Fin cfg0.N, (cfg0.win 7).flush t = true ∧ i ∈ ((cfg0.win 7).blk t).view.set := by
  have hi0 : (i 0).val < 200000 := (i 0).isLt
  have hi1 : (i 1).val < 256 := (i 1).isLt
  have hN : cfg0.N = 100 := N_0
  have ht : (i 0).val / 2000 < cfg0.N := by rw [hN]; omega
  refine ⟨⟨(i 0).val / 2000, ht⟩, flush0_7 _, ?_⟩
  rw [mem_blk0]
  have hI := idx0 ⟨(i 0).val / 2000, ht⟩
  intro a
  match a with
  | ⟨0, _⟩ =>
    show win0_7.index ⟨(i 0).val / 2000, ht⟩ (0 : Fin 2) * 2000 ≤ (i 0).val
      ∧ (i 0).val < win0_7.index ⟨(i 0).val / 2000, ht⟩ (0 : Fin 2) * 2000 + 2000
    have e : win0_7.index ⟨(i 0).val / 2000, ht⟩ (0 : Fin 2) = (i 0).val / 2000 := hI.2.2.1
    omega
  | ⟨1, _⟩ =>
    show win0_7.index ⟨(i 0).val / 2000, ht⟩ (1 : Fin 2) * 256 ≤ (i 1).val
      ∧ (i 1).val < win0_7.index ⟨(i 0).val / 2000, ht⟩ (1 : Fin 2) * 256 + 256
    have e : win0_7.index ⟨(i 0).val / 2000, ht⟩ (1 : Fin 2) = 0 := hI.2.2.2.1
    omega

/-- Region 0's result array after the region: the perceptron of all gathered node rows. -/
theorem final0 (c : Dev nD) : (dat0 V c).arrAt 7 cfg0.N = G0 V c :=
  (dat0 V c).arrAt_eq_of_cover 7 (G0 V c) (fun t _ => flushed0 V c t) (cover0)

/-! ## Region 1 -/

/-- The printed index maps of region 1, decided over its 100 points: the row window and the result window sit at block
    (t, 0), every other window at block 0. -/
theorem idx1 : ∀ t : Fin cfg1.N, win1_0.index t (0 : Fin 2) = t.val ∧ win1_0.index t (1 : Fin 2) = 0
    ∧ win1_7.index t (0 : Fin 2) = t.val ∧ win1_7.index t (1 : Fin 2) = 0
    ∧ win1_1.index t (0 : Fin 2) = 0 ∧ win1_1.index t (1 : Fin 2) = 0
    ∧ win1_5.index t (0 : Fin 2) = 0 ∧ win1_5.index t (1 : Fin 2) = 0
    ∧ win1_2.index t (0 : Fin 1) = 0 ∧ win1_3.index t (0 : Fin 1) = 0 ∧ win1_4.index t (0 : Fin 1) = 0
    ∧ win1_6.index t (0 : Fin 1) = 0 :=
  (by decide +kernel : ∀ t : Fin grid1.N, _)

/-- The first layer's weights: the window's block is the whole array at every point. -/
theorem whole1_1 (c : Dev nD) (t : Fin cfg1.N) : iblk1 V c 1 t = V c main_v33 := by
  have hI := idx1 t
  funext j
  show V c main_v33 (((cfg1.win 1).blk t).view.emb j) = V c main_v33 j
  refine congrArg _ (funext fun a => Fin.ext ?_)
  match a with
  | ⟨0, _⟩ => show win1_1.index t (0 : Fin 2) * 320 + 1 * (j 0).val = (j 0).val; omega
  | ⟨1, _⟩ => show win1_1.index t (1 : Fin 2) * 256 + 1 * (j 1).val = (j 1).val; omega

/-- The first layer's bias: the window's block is the whole array at every point. -/
theorem whole1_2 (c : Dev nD) (t : Fin cfg1.N) : iblk1 V c 2 t = V c main_arg12 := by
  have hI := idx1 t
  funext j
  show V c main_arg12 (((cfg1.win 2).blk t).view.emb j) = V c main_arg12 j
  refine congrArg _ (funext fun a => Fin.ext ?_)
  match a with
  | ⟨0, _⟩ => show win1_2.index t (0 : Fin 1) * 256 + 1 * (j 0).val = (j 0).val; omega

/-- The normalisation's gain: the window's block is the whole array at every point. -/
theorem whole1_3 (c : Dev nD) (t : Fin cfg1.N) : iblk1 V c 3 t = V c main_arg13 := by
  have hI := idx1 t
  funext j
  show V c main_arg13 (((cfg1.win 3).blk t).view.emb j) = V c main_arg13 j
  refine congrArg _ (funext fun a => Fin.ext ?_)
  match a with
  | ⟨0, _⟩ => show win1_3.index t (0 : Fin 1) * 256 + 1 * (j 0).val = (j 0).val; omega

/-- The normalisation's offset: the window's block is the whole array at every point. -/
theorem whole1_4 (c : Dev nD) (t : Fin cfg1.N) : iblk1 V c 4 t = V c main_arg14 := by
  have hI := idx1 t
  funext j
  show V c main_arg14 (((cfg1.win 4).blk t).view.emb j) = V c main_arg14 j
  refine congrArg _ (funext fun a => Fin.ext ?_)
  match a with
  | ⟨0, _⟩ => show win1_4.index t (0 : Fin 1) * 256 + 1 * (j 0).val = (j 0).val; omega

/-- The second layer's weights: the window's block is the whole array at every point. -/
theorem whole1_5 (c : Dev nD) (t : Fin cfg1.N) : iblk1 V c 5 t = V c main_v34 := by
  have hI := idx1 t
  funext j
  show V c main_v34 (((cfg1.win 5).blk t).view.emb j) = V c main_v34 j
  refine congrArg _ (funext fun a => Fin.ext ?_)
  match a with
  | ⟨0, _⟩ => show win1_5.index t (0 : Fin 2) * 256 + 1 * (j 0).val = (j 0).val; omega
  | ⟨1, _⟩ => show win1_5.index t (1 : Fin 2) * 256 + 1 * (j 1).val = (j 1).val; omega

/-- The second layer's bias: the window's block is the whole array at every point. -/
theorem whole1_6 (c : Dev nD) (t : Fin cfg1.N) : iblk1 V c 6 t = V c main_arg16 := by
  have hI := idx1 t
  funext j
  show V c main_arg16 (((cfg1.win 6).blk t).view.emb j) = V c main_arg16 j
  refine congrArg _ (funext fun a => Fin.ext ?_)
  match a with
  | ⟨0, _⟩ => show win1_6.index t (0 : Fin 1) * 256 + 1 * (j 0).val = (j 0).val; omega

/-- What region 1's result array ends holding: relu of the perceptron of all joined rows. -/
def G1 (c : Dev nD) : S200000x256.Idx → EReal :=
  LibNormRows.relu (mlpRows 200000 320 (V c main_v32) (V c main_v33) (V c main_arg12) (V c main_arg13) (V c main_arg14)
    (V c main_v34) (V c main_arg16))

/-- What point t writes back is block t of that array: rows 2000 t to 2000 t + 1999. -/
theorem flushed1 (c : Dev nD) (t : Fin cfg1.N) :
    (dat1 V c).flushed 7 t = ((cfg1.win 7).blk t).view.read (Elt Ideal) (G1 V c) := by
  show (cfg1.win 7).cut (grid1.coords t) ((dat1 V c).after 7 t) = _
  rw [after1_7, KernelBodies.body1, whole1_1, whole1_2, whole1_3, whole1_4, whole1_5, whole1_6]
  have hI := idx1 t
  funext y
  show max (mlpRows 2000 320 (iblk1 V c 0 t) (V c main_v33) (V c main_arg12) (V c main_arg13) (V c main_arg14) (V c main_v34) (V c main_arg16) y) _
    = max (mlpRows 200000 320 (V c main_v32) (V c main_v33) (V c main_arg12) (V c main_arg13) (V c main_arg14) (V c main_v34) (V c main_arg16)
      (((cfg1.win 7).blk t).view.emb y)) _
  refine congrArg (max · _) ?_
  refine mlpRows_block _ _ _ _ _ _ _ _ y _ ?_ fun k => ?_
  · show win1_7.index t (1 : Fin 2) * 256 + 1 * (y 1).val = (y 1).val
    omega
  · show V c main_v32 (((cfg1.win 0).blk t).view.emb (ix2 (y 0 : Fin 2000) k)) = V c main_v32 (ix2 ((((cfg1.win 7).blk t).view.emb y) 0 : Fin 200000) k)
    refine congrArg _ (funext fun a => Fin.ext ?_)
    match a with
    | ⟨0, _⟩ => show win1_0.index t (0 : Fin 2) * 2000 + 1 * (y 0).val = win1_7.index t (0 : Fin 2) * 2000 + 1 * (y 0).val; omega
    | ⟨1, _⟩ => show win1_0.index t (1 : Fin 2) * 320 + 1 * k.val = k.val; omega

/-- An index of the result array is in point t's block iff each coordinate is in the block's range on its axis. -/
theorem mem_blk1 (t : Fin cfg1.N) (i : S200000x256.Idx) :
    i ∈ ((cfg1.win 7).blk t).view.set ↔ ∀ a : Fin 2, win1_7.index t a * S2000x256.size a ≤ (i a).val
      ∧ (i a).val < win1_7.index t a * S2000x256.size a + S2000x256.size a := by
  show i ∈ ((View.whole main_v35).slice (win1_7.rect t)).set ↔ _
  rw [View.set_slice_whole, Rect.mem_set_unit]
  exact Iff.rfl

/-- Every row is in some point's block: row r is in block r / 2000. -/
theorem cover1 (i : S200000x256.Idx) :
    ∃ t : Fin cfg1.N, (cfg1.win 7).flush t = true ∧ i ∈ ((cfg1.win 7).blk t).view.set := by
  have hi0 : (i 0).val < 200000 := (i 0).isLt
  have hi1 : (i 1).val < 256 := (i 1).isLt
  have hN : cfg1.N = 100 := N_1
  have ht : (i 0).val / 2000 < cfg1.N := by rw [hN]; omega
  refine ⟨⟨(i 0).val / 2000, ht⟩, flush1_7 _, ?_⟩
  rw [mem_blk1]
  have hI := idx1 ⟨(i 0).val / 2000, ht⟩
  intro a
  match a with
  | ⟨0, _⟩ =>
    show win1_7.index ⟨(i 0).val / 2000, ht⟩ (0 : Fin 2) * 2000 ≤ (i 0).val
      ∧ (i 0).val < win1_7.index ⟨(i 0).val / 2000, ht⟩ (0 : Fin 2) * 2000 + 2000
    have e : win1_7.index ⟨(i 0).val / 2000, ht⟩ (0 : Fin 2) = (i 0).val / 2000 := hI.2.2.1
    omega
  | ⟨1, _⟩ =>
    show win1_7.index ⟨(i 0).val / 2000, ht⟩ (1 : Fin 2) * 256 ≤ (i 1).val
      ∧ (i 1).val < win1_7.index ⟨(i 0).val / 2000, ht⟩ (1 : Fin 2) * 256 + 256
    have e : win1_7.index ⟨(i 0).val / 2000, ht⟩ (1 : Fin 2) = 0 := hI.2.2.2.1
    omega

/-- Region 1's result array after the region: relu of the perceptron of all joined rows. -/
theorem final1 (c : Dev nD) : (dat1 V c).arrAt 7 cfg1.N = G1 V c :=
  (dat1 V c).arrAt_eq_of_cover 7 (G1 V c) (fun t _ => flushed1 V c t) (cover1)

/-! ## Region 2 -/

/-- The printed index maps of region 2, decided over its 25 points: the two row windows and the result window sit at
    block (t, 0), gain and offset at block 0. -/
theorem idx2 : ∀ t : Fin cfg2.N, win2_0.index t (0 : Fin 2) = t.val ∧ win2_0.index t (1 : Fin 2) = 0
    ∧ win2_4.index t (0 : Fin 2) = t.val ∧ win2_4.index t (1 : Fin 2) = 0
    ∧ win2_1.index t (0 : Fin 2) = t.val ∧ win2_1.index t (1 : Fin 2) = 0
    ∧ win2_2.index t (0 : Fin 1) = 0 ∧ win2_3.index t (0 : Fin 1) = 0 :=
  (by decide +kernel : ∀ t : Fin grid2.N, _)

/-- The normalisation's gain: the window's block is the whole array at every point. -/
theorem whole2_2 (c : Dev nD) (t : Fin cfg2.N) : iblk2 V c 2 t = V c main_arg17 := by
  have hI := idx2 t
  funext j
  show V c main_arg17 (((cfg2.win 2).blk t).view.emb j) = V c main_arg17 j
  refine congrArg _ (funext fun a => Fin.ext ?_)
  match a with
  | ⟨0, _⟩ => show win2_2.index t (0 : Fin 1) * 256 + 1 * (j 0).val = (j 0).val; omega

/-- The normalisation's offset: the window's block is the whole array at every point. -/
theorem whole2_3 (c : Dev nD) (t : Fin cfg2.N) : iblk2 V c 3 t = V c main_arg18 := by
  have hI := idx2 t
  funext j
  show V c main_arg18 (((cfg2.win 3).blk t).view.emb j) = V c main_arg18 j
  refine congrArg _ (funext fun a => Fin.ext ?_)
  match a with
  | ⟨0, _⟩ => show win2_3.index t (0 : Fin 1) * 256 + 1 * (j 0).val = (j 0).val; omega

/-- What region 2's result array ends holding: the node rows plus the layer normalisation of all aggregated rows. -/
def G2 (c : Dev nD) : S50000x256.Idx → EReal :=
  finRows 50000 (V c main_v47) (V c main_arg0) (V c main_arg17) (V c main_arg18)

/-- What point t writes back is block t of that array: rows 2000 t to 2000 t + 1999. -/
theorem flushed2 (c : Dev nD) (t : Fin cfg2.N) :
    (dat2 V c).flushed 4 t = ((cfg2.win 4).blk t).view.read (Elt Ideal) (G2 V c) := by
  show (cfg2.win 4).cut (grid2.coords t) ((dat2 V c).after 4 t) = _
  rw [after2_4, KernelBodies.body2, whole2_2, whole2_3]
  have hI := idx2 t
  funext y
  show finRows 2000 (iblk2 V c 0 t) (iblk2 V c 1 t) (V c main_arg17) (V c main_arg18) y
    = finRows 50000 (V c main_v47) (V c main_arg0) (V c main_arg17) (V c main_arg18) (((cfg2.win 4).blk t).view.emb y)
  refine finRows_block _ _ _ _ _ _ y _ ?_ (fun k => ?_) (fun k => ?_)
  · show win2_4.index t (1 : Fin 2) * 256 + 1 * (y 1).val = (y 1).val
    omega
  · show V c main_v47 (((cfg2.win 0).blk t).view.emb (ix2 (y 0 : Fin 2000) k)) = V c main_v47 (ix2 ((((cfg2.win 4).blk t).view.emb y) 0 : Fin 50000) k)
    refine congrArg _ (funext fun a => Fin.ext ?_)
    match a with
    | ⟨0, _⟩ => show win2_0.index t (0 : Fin 2) * 2000 + 1 * (y 0).val = win2_4.index t (0 : Fin 2) * 2000 + 1 * (y 0).val; omega
    | ⟨1, _⟩ => show win2_0.index t (1 : Fin 2) * 256 + 1 * k.val = k.val; omega
  · show V c main_arg0 (((cfg2.win 1).blk t).view.emb (ix2 (y 0 : Fin 2000) k)) = V c main_arg0 (ix2 ((((cfg2.win 4).blk t).view.emb y) 0 : Fin 50000) k)
    refine congrArg _ (funext fun a => Fin.ext ?_)
    match a with
    | ⟨0, _⟩ => show win2_1.index t (0 : Fin 2) * 2000 + 1 * (y 0).val = win2_4.index t (0 : Fin 2) * 2000 + 1 * (y 0).val; omega
    | ⟨1, _⟩ => show win2_1.index t (1 : Fin 2) * 256 + 1 * k.val = k.val; omega

/-- An index of the result array is in point t's block iff each coordinate is in the block's range on its axis. -/
theorem mem_blk2 (t : Fin cfg2.N) (i : S50000x256.Idx) :
    i ∈ ((cfg2.win 4).blk t).view.set ↔ ∀ a : Fin 2, win2_4.index t a * S2000x256.size a ≤ (i a).val
      ∧ (i a).val < win2_4.index t a * S2000x256.size a + S2000x256.size a := by
  show i ∈ ((View.whole main_v48).slice (win2_4.rect t)).set ↔ _
  rw [View.set_slice_whole, Rect.mem_set_unit]
  exact Iff.rfl

/-- Every row is in some point's block: row r is in block r / 2000. -/
theorem cover2 (i : S50000x256.Idx) :
    ∃ t : Fin cfg2.N, (cfg2.win 4).flush t = true ∧ i ∈ ((cfg2.win 4).blk t).view.set := by
  have hi0 : (i 0).val < 50000 := (i 0).isLt
  have hi1 : (i 1).val < 256 := (i 1).isLt
  have hN : cfg2.N = 25 := N_2
  have ht : (i 0).val / 2000 < cfg2.N := by rw [hN]; omega
  refine ⟨⟨(i 0).val / 2000, ht⟩, flush2_4 _, ?_⟩
  rw [mem_blk2]
  have hI := idx2 ⟨(i 0).val / 2000, ht⟩
  intro a
  match a with
  | ⟨0, _⟩ =>
    show win2_4.index ⟨(i 0).val / 2000, ht⟩ (0 : Fin 2) * 2000 ≤ (i 0).val
      ∧ (i 0).val < win2_4.index ⟨(i 0).val / 2000, ht⟩ (0 : Fin 2) * 2000 + 2000
    have e : win2_4.index ⟨(i 0).val / 2000, ht⟩ (0 : Fin 2) = (i 0).val / 2000 := hI.2.2.1
    omega
  | ⟨1, _⟩ =>
    show win2_4.index ⟨(i 0).val / 2000, ht⟩ (1 : Fin 2) * 256 ≤ (i 1).val
      ∧ (i 1).val < win2_4.index ⟨(i 0).val / 2000, ht⟩ (1 : Fin 2) * 256 + 256
    have e : win2_4.index ⟨(i 0).val / 2000, ht⟩ (1 : Fin 2) = 0 := hI.2.2.2.1
    omega

/-- Region 2's result array after the region: the node rows plus the layer normalisation of all aggregated rows. -/
theorem final2 (c : Dev nD) : (dat2 V c).arrAt 4 cfg2.N = G2 V c :=
  (dat2 V c).arrAt_eq_of_cover 4 (G2 V c) (fun t _ => flushed2 V c t) (cover2)

end Regions

end Cert.KernelValue

end
-- ==== Proof.RefRows.lean ====
/-
  The reference's three dense stages, each read to its row function of the stage's input array.

  The reference applies the node-to-hyperedge perceptron to the gathered node rows, the hyperedge-to-node perceptron
  (under one more relu) to the joined hyperedge attributes and aggregated messages, and closes with the input plus the
  layer normalisation of the degree-normalised node sums.  Each stage is a chain of host operations over whole arrays;
  here each chain is the row function of Rows.lean applied to the array the stage starts from, that array kept under
  its name (a gather, a join, a quotient of a scatter-add: the same operations the kernel's program applies between its
  regions).
-/
import proofs.«139584_j10677288698626_2_alg».proof.Proof.Gen.ReferenceIdeal.Read
import proofs.«139584_j10677288698626_2_alg».proof.Proof.Rows

noncomputable section

namespace Cert.RefRows

open Idealize.ShloMosaic Idealize.ShloMosaic.ValueIdx Cert.ReferenceIdeal Cert.ReferenceIdeal.Gen Cert.ReferenceIdeal.Read Cert.Rows

/-- The node-to-hyperedge messages: the perceptron on the gathered node rows. -/
theorem mlp1 (a0 : (⟨S50000x256, .f32⟩ : BufTy).Contents (Elt Ideal)) (a1 : (⟨S200000, .i32⟩ : BufTy).Contents (Elt Ideal)) (a5 : (⟨S256x256, .f32⟩ : BufTy).Contents (Elt Ideal))
    (a6 a7 a8 : (⟨S256, .f32⟩ : BufTy).Contents (Elt Ideal)) (a9 : (⟨S256x256, .f32⟩ : BufTy).Contents (Elt Ideal)) (a10 : (⟨S256, .f32⟩ : BufTy).Contents (Elt Ideal)) :
    val_main_v39 (F := Ideal) a0 a1 a5 a6 a7 a8 a9 a10
      = mlpRows 200000 256 (val_main_v6 (F := Ideal) a0 a1) a5 a6 a7 a8 a9 a10 := by
  have e10 : val_main_v10 (F := Ideal) a0 a1 a5 a6 = LibDense.dense 200000 256 256 (val_main_v6 (F := Ideal) a0 a1) a5 a6 :=
    dense_host_d dot_S200000x256_S256x256_S200000x256_1_0_0_1_n_n rfl (val_main_v6 (F := Ideal) a0 a1) a5 a6
      bcast_S256_S1x256_1 bcast_S1x256_S200000x256_0_1
  have e34 : val_main_v34 (F := Ideal) a0 a1 a5 a6 a7 a8
      = LibNormRows.normRows 0x43800000#32 0x3727C5AC#32 (val_main_v10 (F := Ideal) a0 a1 a5 a6) a7 a8 :=
    LibNormRows.normRows_host 0x43800000#32 0x3727C5AC#32 (val_main_v10 (F := Ideal) a0 a1 a5 a6) a7 a8
      reducesTo_S200000x256_S200000_d1 (by decide) h_S_ bcast_S200000_S200000x1_0 bcast_S_S200000x1
      bcast_S200000x1_S200000x256_0_1 bcast_S256_S1x256_1 bcast_S1x256_S200000x256_0_1
  have e35 : val_main_v35 (F := Ideal) a0 a1 a5 a6 a7 a8 = LibNormRows.relu (val_main_v34 (F := Ideal) a0 a1 a5 a6 a7 a8) :=
    LibNormRows.relu_host _ bcast_S_S200000x256
  have e39 : val_main_v39 (F := Ideal) a0 a1 a5 a6 a7 a8 a9 a10
      = LibDense.dense 200000 256 256 (val_main_v35 (F := Ideal) a0 a1 a5 a6 a7 a8) a9 a10 :=
    dense_host_d dot_S200000x256_S256x256_S200000x256_1_0_0_1_n_n rfl (val_main_v35 (F := Ideal) a0 a1 a5 a6 a7 a8) a9 a10
      bcast_S256_S1x256_1 bcast_S1x256_S200000x256_0_1
  rw [e39, e35, e34, e10]
  rfl

/-- The hyperedge-to-node messages: relu of the perceptron on the joined rows (hyperedge attributes beside the
    aggregated, count-normalised messages of the row's hyperedge). -/
theorem mlp2 (a0 : (⟨S50000x256, .f32⟩ : BufTy).Contents (Elt Ideal)) (a1 a2 : (⟨S200000, .i32⟩ : BufTy).Contents (Elt Ideal)) (a3 : (⟨S10000x64, .f32⟩ : BufTy).Contents (Elt Ideal)) (a4 : (⟨S10000, .f32⟩ : BufTy).Contents (Elt Ideal))
    (a5 : (⟨S256x256, .f32⟩ : BufTy).Contents (Elt Ideal)) (a6 a7 a8 : (⟨S256, .f32⟩ : BufTy).Contents (Elt Ideal)) (a9 : (⟨S256x256, .f32⟩ : BufTy).Contents (Elt Ideal)) (a10 : (⟨S256, .f32⟩ : BufTy).Contents (Elt Ideal))
    (a11 : (⟨S320x256, .f32⟩ : BufTy).Contents (Elt Ideal)) (a12 a13 a14 : (⟨S256, .f32⟩ : BufTy).Contents (Elt Ideal)) (a15 : (⟨S256x256, .f32⟩ : BufTy).Contents (Elt Ideal)) (a16 : (⟨S256, .f32⟩ : BufTy).Contents (Elt Ideal)) :
    val_main_v96 (F := Ideal) a0 a1 a2 a3 a4 a5 a6 a7 a8 a9 a10 a11 a12 a13 a14 a15 a16
      = LibNormRows.relu (mlpRows 200000 320 (val_main_v62 (F := Ideal) a0 a1 a2 a3 a4 a5 a6 a7 a8 a9 a10) a11 a12 a13 a14 a15 a16) := by
  have e66 : val_main_v66 (F := Ideal) a0 a1 a2 a3 a4 a5 a6 a7 a8 a9 a10 a11 a12 = LibDense.dense 200000 320 256 (val_main_v62 (F := Ideal) a0 a1 a2 a3 a4 a5 a6 a7 a8 a9 a10) a11 a12 :=
    dense_host_d dot_S200000x320_S320x256_S200000x256_1_0_0_1_n_n rfl (val_main_v62 (F := Ideal) a0 a1 a2 a3 a4 a5 a6 a7 a8 a9 a10) a11 a12
      bcast_S256_S1x256_1 bcast_S1x256_S200000x256_0_1
  have e90 : val_main_v90 (F := Ideal) a0 a1 a2 a3 a4 a5 a6 a7 a8 a9 a10 a11 a12 a13 a14
      = LibNormRows.normRows 0x43800000#32 0x3727C5AC#32 (val_main_v66 (F := Ideal) a0 a1 a2 a3 a4 a5 a6 a7 a8 a9 a10 a11 a12) a13 a14 :=
    LibNormRows.normRows_host 0x43800000#32 0x3727C5AC#32 (val_main_v66 (F := Ideal) a0 a1 a2 a3 a4 a5 a6 a7 a8 a9 a10 a11 a12) a13 a14
      reducesTo_S200000x256_S200000_d1 (by decide) h_S_ bcast_S200000_S200000x1_0 bcast_S_S200000x1
      bcast_S200000x1_S200000x256_0_1 bcast_S256_S1x256_1 bcast_S1x256_S200000x256_0_1
  have e91 : val_main_v91 (F := Ideal) a0 a1 a2 a3 a4 a5 a6 a7 a8 a9 a10 a11 a12 a13 a14 = LibNormRows.relu (val_main_v90 (F := Ideal) a0 a1 a2 a3 a4 a5 a6 a7 a8 a9 a10 a11 a12 a13 a14) :=
    LibNormRows.relu_host _ bcast_S_S200000x256
  have e95 : val_main_v95 (F := Ideal) a0 a1 a2 a3 a4 a5 a6 a7 a8 a9 a10 a11 a12 a13 a14 a15 a16
      = LibDense.dense 200000 256 256 (val_main_v91 (F := Ideal) a0 a1 a2 a3 a4 a5 a6 a7 a8 a9 a10 a11 a12 a13 a14) a15 a16 :=
    dense_host_d dot_S200000x256_S256x256_S200000x256_1_0_0_1_n_n rfl (val_main_v91 (F := Ideal) a0 a1 a2 a3 a4 a5 a6 a7 a8 a9 a10 a11 a12 a13 a14) a15 a16
      bcast_S256_S1x256_1 bcast_S1x256_S200000x256_0_1
  have e96 : val_main_v96 (F := Ideal) a0 a1 a2 a3 a4 a5 a6 a7 a8 a9 a10 a11 a12 a13 a14 a15 a16
      = LibNormRows.relu (val_main_v95 (F := Ideal) a0 a1 a2 a3 a4 a5 a6 a7 a8 a9 a10 a11 a12 a13 a14 a15 a16) :=
    LibNormRows.relu_host _ bcast_S_S200000x256
  rw [e96, e95, e91, e90, e66]
  rfl

/-- The result: the node rows plus the layer normalisation of the degree-normalised node sums. -/
theorem fin (a0 : (⟨S50000x256, .f32⟩ : BufTy).Contents (Elt Ideal)) (a1 a2 : (⟨S200000, .i32⟩ : BufTy).Contents (Elt Ideal)) (a3 : (⟨S10000x64, .f32⟩ : BufTy).Contents (Elt Ideal)) (a4 : (⟨S10000, .f32⟩ : BufTy).Contents (Elt Ideal))
    (a5 : (⟨S256x256, .f32⟩ : BufTy).Contents (Elt Ideal)) (a6 a7 a8 : (⟨S256, .f32⟩ : BufTy).Contents (Elt Ideal)) (a9 : (⟨S256x256, .f32⟩ : BufTy).Contents (Elt Ideal)) (a10 : (⟨S256, .f32⟩ : BufTy).Contents (Elt Ideal))
    (a11 : (⟨S320x256, .f32⟩ : BufTy).Contents (Elt Ideal)) (a12 a13 a14 : (⟨S256, .f32⟩ : BufTy).Contents (Elt Ideal)) (a15 : (⟨S256x256, .f32⟩ : BufTy).Contents (Elt Ideal)) (a16 : (⟨S256, .f32⟩ : BufTy).Contents (Elt Ideal))
    (a17 a18 : (⟨S256, .f32⟩ : BufTy).Contents (Elt Ideal)) :
    val_main_v133 (F := Ideal) a0 a1 a2 a3 a4 a5 a6 a7 a8 a9 a10 a11 a12 a13 a14 a15 a16 a17 a18
      = finRows 50000 (val_main_v108 (F := Ideal) a0 a1 a2 a3 a4 a5 a6 a7 a8 a9 a10 a11 a12 a13 a14 a15 a16) a0 a17 a18 := by
  have e132 : val_main_v132 (F := Ideal) a0 a1 a2 a3 a4 a5 a6 a7 a8 a9 a10 a11 a12 a13 a14 a15 a16 a17 a18
      = LibNormRows.normRows 0x43800000#32 0x3727C5AC#32 (val_main_v108 (F := Ideal) a0 a1 a2 a3 a4 a5 a6 a7 a8 a9 a10 a11 a12 a13 a14 a15 a16) a17 a18 :=
    LibNormRows.normRows_host 0x43800000#32 0x3727C5AC#32 (val_main_v108 (F := Ideal) a0 a1 a2 a3 a4 a5 a6 a7 a8 a9 a10 a11 a12 a13 a14 a15 a16) a17 a18
      reducesTo_S50000x256_S50000_d1 (by decide) h_S_ bcast_S50000_S50000x1_0 bcast_S_S50000x1
      bcast_S50000x1_S50000x256_0_1 bcast_S256_S1x256_1 bcast_S1x256_S50000x256_0_1
  unfold finRows
  rw [← e132]
  rfl

end Cert.RefRows

end
-- ==== Proof.KernelGlue.lean ====
/-
  The idealized kernel's buffers at the boundaries between its host operations and its three regions, each as the
  reference's own stage of the launch arguments.

  Between the regions the kernel's program applies to whole arrays the same operations the reference applies: the gather
  of the node rows; the scatter-add of the messages into their hyperedges, its quotient by the counts plus the
  stabiliser, the two gathers back and the join; the scatter-add of the messages into their nodes and its quotient by the
  degrees plus the stabiliser.  A region's result array is the row function of its whole input arrays (KernelValue.lean),
  and the reference's matching stage is the same row function of the same arrays (RefRows.lean).  So, walking from the
  launch to the return, each boundary's buffer is the reference's stage of the arguments, and the result buffer is the
  reference's result.
-/
import proofs.«139584_j10677288698626_2_alg».proof.Proof.Gen.KernelIdeal.Frame
import proofs.«139584_j10677288698626_2_alg».proof.Proof.Gen.ReferenceIdeal.Read
import proofs.«139584_j10677288698626_2_alg».proof.Proof.KernelValue
import proofs.«139584_j10677288698626_2_alg».proof.Proof.RefRows
import Idealize.ShloMosaic.Lib.StableHlo.Run

set_option maxRecDepth 16384

noncomputable section

namespace Cert.KernelGlue

open Idealize.ShloMosaic Idealize.ShloMosaic.TcCoe Idealize.SL.Sem Idealize.ShloMosaic.StableHlo
open Cert.KernelIdeal Cert.KernelIdeal.Gen
open Cert.ReferenceIdeal.Read (val_main_v6 val_main_v39 val_main_v62 val_main_v96 val_main_v108 val_main_v133)

variable (m : (ℓ : Loc nD τ sig) → Buf (Elt Ideal) ℓ) (ρ : Dev nD → PrngReg)

/-! ## Region 0's entry: the first host operations applied to the launch memory -/

theorem v1_0 (c : Dev nD) : V1 m ρ c main_arg0 = (m ((c : Thread nD τ).loc main_arg0)) := by
  show StableHlo.after hostOps0 (W0 m ρ c) (Proc.devRef .tc main_arg0) = _
  after_results <;> rfl

theorem v1_1 (c : Dev nD) : V1 m ρ c main_arg1 = (m ((c : Thread nD τ).loc main_arg1)) := by
  show StableHlo.after hostOps0 (W0 m ρ c) (Proc.devRef .tc main_arg1) = _
  after_results <;> rfl

theorem v1_2 (c : Dev nD) : V1 m ρ c main_arg2 = (m ((c : Thread nD τ).loc main_arg2)) := by
  show StableHlo.after hostOps0 (W0 m ρ c) (Proc.devRef .tc main_arg2) = _
  after_results <;> rfl

theorem v1_3 (c : Dev nD) : V1 m ρ c main_arg3 = (m ((c : Thread nD τ).loc main_arg3)) := by
  show StableHlo.after hostOps0 (W0 m ρ c) (Proc.devRef .tc main_arg3) = _
  after_results <;> rfl

theorem v1_4 (c : Dev nD) : V1 m ρ c main_arg4 = (m ((c : Thread nD τ).loc main_arg4)) := by
  show StableHlo.after hostOps0 (W0 m ρ c) (Proc.devRef .tc main_arg4) = _
  after_results <;> rfl

theorem v1_5 (c : Dev nD) : V1 m ρ c main_arg5 = (m ((c : Thread nD τ).loc main_arg5)) := by
  show StableHlo.after hostOps0 (W0 m ρ c) (Proc.devRef .tc main_arg5) = _
  after_results <;> rfl

theorem v1_6 (c : Dev nD) : V1 m ρ c main_arg6 = (m ((c : Thread nD τ).loc main_arg6)) := by
  show StableHlo.after hostOps0 (W0 m ρ c) (Proc.devRef .tc main_arg6) = _
  after_results <;> rfl

theorem v1_7 (c : Dev nD) : V1 m ρ c main_arg7 = (m ((c : Thread nD τ).loc main_arg7)) := by
  show StableHlo.after hostOps0 (W0 m ρ c) (Proc.devRef .tc main_arg7) = _
  after_results <;> rfl

theorem v1_8 (c : Dev nD) : V1 m ρ c main_arg8 = (m ((c : Thread nD τ).loc main_arg8)) := by
  show StableHlo.after hostOps0 (W0 m ρ c) (Proc.devRef .tc main_arg8) = _
  after_results <;> rfl

theorem v1_9 (c : Dev nD) : V1 m ρ c main_arg9 = (m ((c : Thread nD τ).loc main_arg9)) := by
  show StableHlo.after hostOps0 (W0 m ρ c) (Proc.devRef .tc main_arg9) = _
  after_results <;> rfl

theorem v1_10 (c : Dev nD) : V1 m ρ c main_arg10 = (m ((c : Thread nD τ).loc main_arg10)) := by
  show StableHlo.after hostOps0 (W0 m ρ c) (Proc.devRef .tc main_arg10) = _
  after_results <;> rfl

theorem v1_11 (c : Dev nD) : V1 m ρ c main_arg11 = (m ((c : Thread nD τ).loc main_arg11)) := by
  show StableHlo.after hostOps0 (W0 m ρ c) (Proc.devRef .tc main_arg11) = _
  after_results <;> rfl

theorem v1_12 (c : Dev nD) : V1 m ρ c main_arg12 = (m ((c : Thread nD τ).loc main_arg12)) := by
  show StableHlo.after hostOps0 (W0 m ρ c) (Proc.devRef .tc main_arg12) = _
  after_results <;> rfl

theorem v1_13 (c : Dev nD) : V1 m ρ c main_arg13 = (m ((c : Thread nD τ).loc main_arg13)) := by
  show StableHlo.after hostOps0 (W0 m ρ c) (Proc.devRef .tc main_arg13) = _
  after_results <;> rfl

theorem v1_14 (c : Dev nD) : V1 m ρ c main_arg14 = (m ((c : Thread nD τ).loc main_arg14)) := by
  show StableHlo.after hostOps0 (W0 m ρ c) (Proc.devRef .tc main_arg14) = _
  after_results <;> rfl

theorem v1_15 (c : Dev nD) : V1 m ρ c main_arg15 = (m ((c : Thread nD τ).loc main_arg15)) := by
  show StableHlo.after hostOps0 (W0 m ρ c) (Proc.devRef .tc main_arg15) = _
  after_results <;> rfl

theorem v1_16 (c : Dev nD) : V1 m ρ c main_arg16 = (m ((c : Thread nD τ).loc main_arg16)) := by
  show StableHlo.after hostOps0 (W0 m ρ c) (Proc.devRef .tc main_arg16) = _
  after_results <;> rfl

theorem v1_17 (c : Dev nD) : V1 m ρ c main_arg17 = (m ((c : Thread nD τ).loc main_arg17)) := by
  show StableHlo.after hostOps0 (W0 m ρ c) (Proc.devRef .tc main_arg17) = _
  after_results <;> rfl

theorem v1_18 (c : Dev nD) : V1 m ρ c main_arg18 = (m ((c : Thread nD τ).loc main_arg18)) := by
  show StableHlo.after hostOps0 (W0 m ρ c) (Proc.devRef .tc main_arg18) = _
  after_results <;> rfl

/-- The gathered node rows are the reference's. -/
theorem v1_rows (c : Dev nD) : V1 m ρ c main_v6 = val_main_v6 (F := Ideal) (m ((c : Thread nD τ).loc main_arg0)) (m ((c : Thread nD τ).loc main_arg1)) := by
  show StableHlo.after hostOps0 (W0 m ρ c) (Proc.devRef .tc main_v6) = _
  after_results <;> rfl

/-- The narrowed first weights of the first perceptron are the weights. -/
theorem v1_w1 (c : Dev nD) : V1 m ρ c main_v7 = ((m ((c : Thread nD τ).loc main_arg5)) : S256x256.Idx → EReal) := by
  show StableHlo.after hostOps0 (W0 m ρ c) (Proc.devRef .tc main_v7) = _
  after_results <;> rfl

/-- The narrowed second weights of the first perceptron are the weights. -/
theorem v1_w2 (c : Dev nD) : V1 m ρ c main_v8 = ((m ((c : Thread nD τ).loc main_arg9)) : S256x256.Idx → EReal) := by
  show StableHlo.after hostOps0 (W0 m ρ c) (Proc.devRef .tc main_v8) = _
  after_results <;> rfl

/-! ## Region 0's exit -/

theorem w2_0 (c : Dev nD) : W2 m ρ c (Proc.devRef .tc main_arg0) = (m ((c : Thread nD τ).loc main_arg0)) :=
  (W2_of_ne m ρ c main_arg0 (by decide)).trans (v1_0 m ρ c)

theorem w2_1 (c : Dev nD) : W2 m ρ c (Proc.devRef .tc main_arg1) = (m ((c : Thread nD τ).loc main_arg1)) :=
  (W2_of_ne m ρ c main_arg1 (by decide)).trans (v1_1 m ρ c)

theorem w2_2 (c : Dev nD) : W2 m ρ c (Proc.devRef .tc main_arg2) = (m ((c : Thread nD τ).loc main_arg2)) :=
  (W2_of_ne m ρ c main_arg2 (by decide)).trans (v1_2 m ρ c)

theorem w2_3 (c : Dev nD) : W2 m ρ c (Proc.devRef .tc main_arg3) = (m ((c : Thread nD τ).loc main_arg3)) :=
  (W2_of_ne m ρ c main_arg3 (by decide)).trans (v1_3 m ρ c)

theorem w2_4 (c : Dev nD) : W2 m ρ c (Proc.devRef .tc main_arg4) = (m ((c : Thread nD τ).loc main_arg4)) :=
  (W2_of_ne m ρ c main_arg4 (by decide)).trans (v1_4 m ρ c)

theorem w2_11 (c : Dev nD) : W2 m ρ c (Proc.devRef .tc main_arg11) = (m ((c : Thread nD τ).loc main_arg11)) :=
  (W2_of_ne m ρ c main_arg11 (by decide)).trans (v1_11 m ρ c)

theorem w2_12 (c : Dev nD) : W2 m ρ c (Proc.devRef .tc main_arg12) = (m ((c : Thread nD τ).loc main_arg12)) :=
  (W2_of_ne m ρ c main_arg12 (by decide)).trans (v1_12 m ρ c)

theorem w2_13 (c : Dev nD) : W2 m ρ c (Proc.devRef .tc main_arg13) = (m ((c : Thread nD τ).loc main_arg13)) :=
  (W2_of_ne m ρ c main_arg13 (by decide)).trans (v1_13 m ρ c)

theorem w2_14 (c : Dev nD) : W2 m ρ c (Proc.devRef .tc main_arg14) = (m ((c : Thread nD τ).loc main_arg14)) :=
  (W2_of_ne m ρ c main_arg14 (by decide)).trans (v1_14 m ρ c)

theorem w2_15 (c : Dev nD) : W2 m ρ c (Proc.devRef .tc main_arg15) = (m ((c : Thread nD τ).loc main_arg15)) :=
  (W2_of_ne m ρ c main_arg15 (by decide)).trans (v1_15 m ρ c)

theorem w2_16 (c : Dev nD) : W2 m ρ c (Proc.devRef .tc main_arg16) = (m ((c : Thread nD τ).loc main_arg16)) :=
  (W2_of_ne m ρ c main_arg16 (by decide)).trans (v1_16 m ρ c)

theorem w2_17 (c : Dev nD) : W2 m ρ c (Proc.devRef .tc main_arg17) = (m ((c : Thread nD τ).loc main_arg17)) :=
  (W2_of_ne m ρ c main_arg17 (by decide)).trans (v1_17 m ρ c)

theorem w2_18 (c : Dev nD) : W2 m ρ c (Proc.devRef .tc main_arg18) = (m ((c : Thread nD τ).loc main_arg18)) :=
  (W2_of_ne m ρ c main_arg18 (by decide)).trans (v1_18 m ρ c)

/-- Region 0's result array is the reference's node-to-hyperedge messages. -/
theorem msgs1 (c : Dev nD) : W2 m ρ c (Proc.devRef .tc main_v9)
    = val_main_v39 (F := Ideal) (m ((c : Thread nD τ).loc main_arg0)) (m ((c : Thread nD τ).loc main_arg1)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W2_arr m ρ c 7).trans ((KernelValue.final0 (V1 m ρ) c).trans ?_)
  unfold KernelValue.G0
  rw [v1_rows m ρ c, v1_w1 m ρ c, v1_6 m ρ c, v1_7 m ρ c, v1_8 m ρ c, v1_w2 m ρ c, v1_10 m ρ c]
  exact (RefRows.mlp1 _ _ _ _ _ _ _ _).symm

/-! ## Region 1's entry: the second host operations applied to region 0's exit -/

/-- The joined rows are the reference's: the gathered hyperedge attributes beside the gathered quotient of the
    messages' scatter-add by the counts plus the stabiliser. -/
theorem v3_rows (c : Dev nD) : V3 m ρ c main_v32 = val_main_v62 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  show StableHlo.after hostOps1 (W2 m ρ c) (Proc.devRef .tc main_v32) = _
  after_results_simp
  refine congrArg₂ (fun (a : (⟨S200000x64, .f32⟩ : BufTy).Contents (Elt Ideal)) (b : (⟨S200000x256, .f32⟩ : BufTy).Contents (Elt Ideal)) =>
    concatenate S200000x320 1 [⟨S200000x64, a⟩, ⟨S200000x256, b⟩] concatenates_S200000x64_S200000x256_S200000x320_d1) ?_ ?_
  · after_results_simp
    rw [w2_2 m ρ c, w2_3 m ρ c]
    <;> rfl
  · after_results_simp
    rw [w2_2 m ρ c, w2_4 m ρ c, msgs1 m ρ c]
    <;> rfl

/-- The narrowed first weights of the second perceptron are the weights. -/
theorem v3_w1 (c : Dev nD) : V3 m ρ c main_v33 = ((m ((c : Thread nD τ).loc main_arg11)) : S320x256.Idx → EReal) := by
  show StableHlo.after hostOps1 (W2 m ρ c) (Proc.devRef .tc main_v33) = _
  after_results_simp
  rw [w2_11 m ρ c]
  <;> rfl

/-- The narrowed second weights of the second perceptron are the weights. -/
theorem v3_w2 (c : Dev nD) : V3 m ρ c main_v34 = ((m ((c : Thread nD τ).loc main_arg15)) : S256x256.Idx → EReal) := by
  show StableHlo.after hostOps1 (W2 m ρ c) (Proc.devRef .tc main_v34) = _
  after_results_simp
  rw [w2_15 m ρ c]
  <;> rfl

theorem v3_0 (c : Dev nD) : V3 m ρ c main_arg0 = (m ((c : Thread nD τ).loc main_arg0)) := by
  show StableHlo.after hostOps1 (W2 m ρ c) (Proc.devRef .tc main_arg0) = _
  after_results_simp
  exact w2_0 m ρ c

theorem v3_1 (c : Dev nD) : V3 m ρ c main_arg1 = (m ((c : Thread nD τ).loc main_arg1)) := by
  show StableHlo.after hostOps1 (W2 m ρ c) (Proc.devRef .tc main_arg1) = _
  after_results_simp
  exact w2_1 m ρ c

theorem v3_12 (c : Dev nD) : V3 m ρ c main_arg12 = (m ((c : Thread nD τ).loc main_arg12)) := by
  show StableHlo.after hostOps1 (W2 m ρ c) (Proc.devRef .tc main_arg12) = _
  after_results_simp
  exact w2_12 m ρ c

theorem v3_13 (c : Dev nD) : V3 m ρ c main_arg13 = (m ((c : Thread nD τ).loc main_arg13)) := by
  show StableHlo.after hostOps1 (W2 m ρ c) (Proc.devRef .tc main_arg13) = _
  after_results_simp
  exact w2_13 m ρ c

theorem v3_14 (c : Dev nD) : V3 m ρ c main_arg14 = (m ((c : Thread nD τ).loc main_arg14)) := by
  show StableHlo.after hostOps1 (W2 m ρ c) (Proc.devRef .tc main_arg14) = _
  after_results_simp
  exact w2_14 m ρ c

theorem v3_16 (c : Dev nD) : V3 m ρ c main_arg16 = (m ((c : Thread nD τ).loc main_arg16)) := by
  show StableHlo.after hostOps1 (W2 m ρ c) (Proc.devRef .tc main_arg16) = _
  after_results_simp
  exact w2_16 m ρ c

theorem v3_17 (c : Dev nD) : V3 m ρ c main_arg17 = (m ((c : Thread nD τ).loc main_arg17)) := by
  show StableHlo.after hostOps1 (W2 m ρ c) (Proc.devRef .tc main_arg17) = _
  after_results_simp
  exact w2_17 m ρ c

theorem v3_18 (c : Dev nD) : V3 m ρ c main_arg18 = (m ((c : Thread nD τ).loc main_arg18)) := by
  show StableHlo.after hostOps1 (W2 m ρ c) (Proc.devRef .tc main_arg18) = _
  after_results_simp
  exact w2_18 m ρ c

/-! ## Region 1's exit -/

theorem w4_0 (c : Dev nD) : W4 m ρ c (Proc.devRef .tc main_arg0) = (m ((c : Thread nD τ).loc main_arg0)) :=
  (W4_of_ne m ρ c main_arg0 (by decide)).trans (v3_0 m ρ c)

theorem w4_1 (c : Dev nD) : W4 m ρ c (Proc.devRef .tc main_arg1) = (m ((c : Thread nD τ).loc main_arg1)) :=
  (W4_of_ne m ρ c main_arg1 (by decide)).trans (v3_1 m ρ c)

theorem w4_17 (c : Dev nD) : W4 m ρ c (Proc.devRef .tc main_arg17) = (m ((c : Thread nD τ).loc main_arg17)) :=
  (W4_of_ne m ρ c main_arg17 (by decide)).trans (v3_17 m ρ c)

theorem w4_18 (c : Dev nD) : W4 m ρ c (Proc.devRef .tc main_arg18) = (m ((c : Thread nD τ).loc main_arg18)) :=
  (W4_of_ne m ρ c main_arg18 (by decide)).trans (v3_18 m ρ c)

/-- Region 1's result array is the reference's hyperedge-to-node messages. -/
theorem msgs2 (c : Dev nD) : W4 m ρ c (Proc.devRef .tc main_v35)
    = val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  refine (W4_arr m ρ c 7).trans ((KernelValue.final1 (V3 m ρ) c).trans ?_)
  unfold KernelValue.G1
  rw [v3_rows m ρ c, v3_w1 m ρ c, v3_12 m ρ c, v3_13 m ρ c, v3_14 m ρ c, v3_w2 m ρ c, v3_16 m ρ c]
  exact (RefRows.mlp2 _ _ _ _ _ _ _ _ _ _ _ _ _ _ _ _ _).symm

/-! ## Region 2's entry: the third host operations applied to region 1's exit -/

/-- The aggregated node rows are the reference's: the quotient of the messages' scatter-add into the nodes by the
    degrees plus the stabiliser. -/
theorem v5_rows (c : Dev nD) : V5 m ρ c main_v47 = val_main_v108 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) := by
  show StableHlo.after hostOps2 (W4 m ρ c) (Proc.devRef .tc main_v47) = _
  after_results_simp
  rw [w4_1 m ρ c, msgs2 m ρ c]
  <;> rfl

theorem v5_0 (c : Dev nD) : V5 m ρ c main_arg0 = (m ((c : Thread nD τ).loc main_arg0)) := by
  show StableHlo.after hostOps2 (W4 m ρ c) (Proc.devRef .tc main_arg0) = _
  after_results_simp
  exact w4_0 m ρ c

theorem v5_17 (c : Dev nD) : V5 m ρ c main_arg17 = (m ((c : Thread nD τ).loc main_arg17)) := by
  show StableHlo.after hostOps2 (W4 m ρ c) (Proc.devRef .tc main_arg17) = _
  after_results_simp
  exact w4_17 m ρ c

theorem v5_18 (c : Dev nD) : V5 m ρ c main_arg18 = (m ((c : Thread nD τ).loc main_arg18)) := by
  show StableHlo.after hostOps2 (W4 m ρ c) (Proc.devRef .tc main_arg18) = _
  after_results_simp
  exact w4_18 m ρ c

/-! ## The return -/

/-- The result buffer after the last region is the reference's result of the launch arguments. -/
theorem result (c : Dev nD) : W6 m ρ c (Proc.devRef .tc main_v48)
    = val_main_v133 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) := by
  refine (W6_arr m ρ c 4).trans ((KernelValue.final2 (V5 m ρ) c).trans ?_)
  unfold KernelValue.G2
  rw [v5_rows m ρ c, v5_0 m ρ c, v5_17 m ρ c, v5_18 m ρ c]
  exact (RefRows.fin _ _ _ _ _ _ _ _ _ _ _ _ _ _ _ _ _ _ _).symm

end Cert.KernelGlue

end
-- ==== Proof.lean ====
/-
  A hypergraph message-passing layer against its jnp reference, equal at the ideal values.

  The layer gathers the node rows of the 200000 incidences, sends each through a two-layer perceptron (dense, layer
  normalisation, relu, dense), sums the messages into their hyperedges and divides by the hyperedge counts plus 1e-6,
  gathers the result back per incidence beside the hyperedge attributes, sends the joined rows through a second perceptron
  under a relu, sums those messages into their nodes and divides by the node degrees plus 1e-6, and returns the node rows
  plus the layer normalisation of that.  The kernel runs the two perceptrons and the closing step as three TensorCore
  regions over blocks of 2000 rows, with operands narrowed to bf16, and leaves the gathers, the scatter-adds and the
  quotients to the same host operations the reference uses.

  At the ideal values narrowing is the identity, a matrix product into a zero accumulator is the plain sum over the
  shared axis, a lane sum is the plain sum of the row, and every entry of a perceptron's or of the closing step's result
  depends on one row of its input; so each region's result array is the reference's matching stage (KernelValue.lean,
  RefRows.lean), the host operations between are shared (KernelGlue.lean), and the two programs end with the same array.
  No law beyond 0 + x = x and the commutativity and associativity of sums is used, so the precondition that the inputs
  are finite is never opened.  The idealization rewrote no operation, so the kernel's idealization is its own text.
-/
import proofs.«139584_j10677288698626_2_alg».proof.Defs
import proofs.«139584_j10677288698626_2_alg».proof.Proof.Gen.Kernel
import proofs.«139584_j10677288698626_2_alg».proof.Proof.Gen.Kernel.Skeleton
import proofs.«139584_j10677288698626_2_alg».proof.Proof.Gen.Kernel.Launch
import proofs.«139584_j10677288698626_2_alg».proof.Proof.Gen.Kernel.Points
import proofs.«139584_j10677288698626_2_alg».proof.Proof.Gen.Kernel.Frame
import proofs.«139584_j10677288698626_2_alg».proof.Proof.Gen.KernelIdeal
import proofs.«139584_j10677288698626_2_alg».proof.Proof.Gen.KernelIdeal.Skeleton
import proofs.«139584_j10677288698626_2_alg».proof.Proof.Gen.KernelIdeal.Launch
import proofs.«139584_j10677288698626_2_alg».proof.Proof.Gen.KernelIdeal.Points
import proofs.«139584_j10677288698626_2_alg».proof.Proof.Gen.KernelIdeal.Frame
import proofs.«139584_j10677288698626_2_alg».proof.Proof.Gen.ReferenceIdeal
import proofs.«139584_j10677288698626_2_alg».proof.Proof.Gen.ReferenceIdeal.Run
import proofs.«139584_j10677288698626_2_alg».proof.Proof.Gen.ReferenceIdeal.Read
import proofs.«139584_j10677288698626_2_alg».proof.Proof.Gen.Pre_finite_inputs
import proofs.«139584_j10677288698626_2_alg».proof.Proof.KernelRun
import proofs.«139584_j10677288698626_2_alg».proof.Proof.KernelGlue
import Idealize.ShloMosaic.Adequacy
import Idealize.ShloMosaic.Init

noncomputable section

namespace Cert.Proof

open Idealize.ShloMosaic Idealize.SL.Sem Cert.Kernel

/-- The kernel as printed runs and leaves its arguments as launched. -/
theorem frame_kernel : Cert.frame_Kernel := fun m ρ _ => Cert.Kernel.Gen.frame m ρ

/-- The idealized kernel runs and leaves its arguments as launched. -/
theorem frame_kernelIdeal : Cert.frame_KernelIdeal := fun m ρ _ => Cert.KernelIdeal.Gen.frame m ρ

/-- The idealized reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end with the reference's result of the
    arguments: the kernel by its run through the three regions, the reference by its own run. -/
theorem algebraic : Cert.algebraic_KernelIdeal_ReferenceIdeal := by
  intro m ρ m' ρ' _ hagree
  refine ⟨fun c => Cert.ReferenceIdeal.Read.val_main_v133 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)), ?_, ?_⟩
  · exact (θ_run Cert.KernelIdeal.defs _ _).mono
      (fun r h c => ⟨(h c).1.trans (Cert.KernelGlue.result m ρ c), (h c).2⟩) (Cert.KernelIdeal.RunValue.run_value m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v133_eq]
    obtain ⟨h0, h1, h2, h3, h4, h5, h6, h7, h8, h9, h10, h11, h12, h13, h14, h15, h16, h17, h18⟩ := hagree c
    rw [h0, h1, h2, h3, h4, h5, h6, h7, h8, h9, h10, h11, h12, h13, h14, h15, h16, h17, h18]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
